-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S3200000x1 : Shape := ⟨2, ![3200000, 1]⟩
abbrev S32x32 : Shape := ⟨2, ![32, 32]⟩
abbrev S32 : Shape := ⟨1, ![32]⟩
abbrev S64x32 : Shape := ⟨2, ![64, 32]⟩
abbrev S3200000 : Shape := ⟨1, ![3200000]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S3200000x1 : S_.BroadcastsInDim S3200000x1 (![] : Fin 0 → Fin S3200000x1.rank)
  reducesTo_S3200000x1_S_d0_1 : S3200000x1.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S64x32 : S_.BroadcastsInDim S64x32 (![] : Fin 0 → Fin S64x32.rank)
  reducesTo_S64x32_S_d0_1 : S64x32.ReducesTo [0, 1] S_

variable [Facts]

def fn_part2 {F : FTy → Type} [FloatOps F] (main_arg7 : FVec F S32x32 .f32) (main_arg8 : FVec F S32 .f32) (main_v33 : IVec S_ 1) : IVec S_ 1 :=
  let main_v34 : FVec F S32x32 .f32 := Host.absf main_arg7
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg4 : FVec F S32 .f32) (main_arg5 : FVec F S64x32 .f32) (main_arg6 : FVec F S32 .f32) (main_arg7 : FVec F S32x32 .f32) (main_arg8 : FVec F S32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S64x32 .f32 := Host.absf main_arg5
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_v33

def fn {F : FTy → Type} [FloatOps F] (main_arg0 : FVec F S100000x32 .f32) (main_arg1 : FVec F S100000x32 .f32) (main_arg2 : FVec F S3200000x1 .f32) (main_arg3 : FVec F S32x32 .f32) (main_arg4 : FVec F S32 .f32) (main_arg5 : FVec F S64x32 .f32) (main_arg6 : FVec F S32 .f32) (main_arg7 : FVec F S32x32 .f32) (main_arg8 : FVec F S32 .f32) (main_arg9 : IVec S3200000 32) (main_arg10 : IVec S3200000 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S100000x32 .f32 := Host.absf main_arg1
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S3200000x1 .f32 := Host.absf main_arg2
  let main_cst_2 : FVec F S_ .f32 := constant S_ .f32 0x7F800000#32
  let main_v10 : FVec F S3200000x1 .f32 := broadcastInDim S3200000x1 ![] bcast_S_S3200000x1 main_cst_2
  let main_v11 : IVec S3200000x1 1 := cmpf .olt main_v9 main_v10
  let main_c_3 : IVec S_ 1 := constantI S_ 1 1#1
  let main_v12 : IVec S_ 1 := (fun x v => Host.reduce IntOp.andi x v reducesTo_S3200000x1_S_d0_1 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_arg5 main_arg6 main_arg7 main_arg8 main_v13 main_v16
-- ==== Kernel.lean ====
abbrev S100000x32 : Shape := ⟨2, ![100000, 32]⟩
abbrev S3200000x1 : Shape := ⟨2, ![3200000, 1]⟩
abbrev S32x32 : Shape := ⟨2, ![32, 32]⟩
abbrev S32 : Shape := ⟨1, ![32]⟩
abbrev S64x32 : Shape := ⟨2, ![64, 32]⟩
abbrev S3200000 : Shape := ⟨1, ![3200000]⟩
abbrev S1x32 : Shape := ⟨2, ![1, 32]⟩
abbrev S10000x32 : Shape := ⟨2, ![10000, 32]⟩
abbrev S_ : Shape := ⟨0, ![]⟩
abbrev S3200000x32 : Shape := ⟨2, ![3200000, 32]⟩
abbrev S50000x32 : Shape := ⟨2, ![50000, 32]⟩
abbrev S3200000x33 : Shape := ⟨2, ![3200000, 33]⟩
abbrev S100000x33 : Shape := ⟨2, ![100000, 33]⟩
abbrev S10000x33 : Shape := ⟨2, ![10000, 33]⟩
abbrev S10000x1 : Shape := ⟨2, ![10000, 1]⟩

abbrev nBuf : Space → Nat
  | .hbm => 51
  | .vmem => 25
  | .smem => 0
  | _ => 0

abbrev bufTy : (tb : Table) → Fin (tcTables nBuf tb) → BufTy
  | .hbm, ⟨0, _⟩ => ⟨S100000x32, .f32⟩
  | .hbm, ⟨1, _⟩ => ⟨S100000x32, .f32⟩
  | .hbm, ⟨2, _⟩ => ⟨S3200000x1, .f32⟩
  | .hbm, ⟨3, _⟩ => ⟨S32x32, .f32⟩
  | .hbm, ⟨4, _⟩ => ⟨S32, .f32⟩
  | .hbm, ⟨5, _⟩ => ⟨S64x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S3200000, .i32⟩
  | .hbm, ⟨10, _⟩ => ⟨S3200000, .i32⟩
  | .hbm, ⟨11, _⟩ => ⟨S32x32, .f32⟩
  | .hbm, ⟨12, _⟩ => ⟨S32x32, .f32⟩
  | .hbm, ⟨13, _⟩ => ⟨S1x32, .f32⟩
  | .hbm, ⟨14, _⟩ => ⟨S1x32, .f32⟩
  | .hbm, ⟨15, _⟩ => ⟨S100000x32, .f32⟩
  | .hbm, ⟨16, _⟩ => ⟨S100000x32, .f32⟩
  | .hbm, ⟨17, _⟩ => ⟨S_, .i32⟩
  | .hbm, ⟨18, _⟩ => ⟨S3200000, .i32⟩
  | .hbm, ⟨19, _⟩ => ⟨S3200000, .i1⟩
  | .hbm, ⟨20, _⟩ => ⟨S_, .i32⟩
  | .hbm, ⟨21, _⟩ => ⟨S3200000, .i32⟩
  | .hbm, ⟨22, _⟩ => ⟨S3200000, .i32⟩
  | .hbm, ⟨23, _⟩ => ⟨S3200000, .i32⟩
  | .hbm, ⟨24, _⟩ => ⟨S3200000x1, .i32⟩
  | .hbm, ⟨25, _⟩ => ⟨S3200000x32, .f32⟩
  | .hbm, ⟨26, _⟩ => ⟨S3200000x32, .f32⟩
  | .hbm, ⟨27, _⟩ => ⟨S3200000x32, .f32⟩
  | .hbm, ⟨28, _⟩ => ⟨S_, .f32⟩
  | .hbm, ⟨29, _⟩ => ⟨S50000x32, .f32⟩
  | .hbm, ⟨30, _⟩ => ⟨S3200000x1, .i32⟩
  | .hbm, ⟨31, _⟩ => ⟨S50000x32, .f32⟩
  | .hbm, ⟨32, _⟩ => ⟨S50000x32, .f32⟩
  | .hbm, ⟨33, _⟩ => ⟨S_, .i32⟩
  | .hbm, ⟨34, _⟩ => ⟨S3200000, .i32⟩
  | .hbm, ⟨35, _⟩ => ⟨S3200000, .i1⟩
  | .hbm, ⟨36, _⟩ => ⟨S_, .i32⟩
  | .hbm, ⟨37, _⟩ => ⟨S3200000, .i32⟩
  | .hbm, ⟨38, _⟩ => ⟨S3200000, .i32⟩
  | .hbm, ⟨39, _⟩ => ⟨S3200000, .i32⟩
  | .hbm, ⟨40, _⟩ => ⟨S3200000x1, .i32⟩
  | .hbm, ⟨41, _⟩ => ⟨S3200000x32, .f32⟩
  | .hbm, ⟨42, _⟩ => ⟨S_, .f32⟩
  | .hbm, ⟨43, _⟩ => ⟨S3200000x1, .f32⟩
  | .hbm, ⟨44, _⟩ => ⟨S3200000x33, .f32⟩
  | .hbm, ⟨45, _⟩ => ⟨S_, .f32⟩
  | .hbm, ⟨46, _⟩ => ⟨S100000x33, .f32⟩
  | .hbm, ⟨47, _⟩ => ⟨S3200000x1, .i32⟩
  | .hbm, ⟨48, _⟩ => ⟨S100000x33, .f32⟩
  | .hbm, ⟨49, _⟩ => ⟨S1x32, .f32⟩
  | .hbm, ⟨50, _⟩ => ⟨S100000x32, .f32⟩
  | .local _ .vmem, ⟨0, _⟩ => ⟨S10000x32, .f32⟩
  | .local _ .vmem, ⟨1, _⟩ => ⟨S10000x32, .f32⟩
  | .local _ .vmem, ⟨2, _⟩ => ⟨S32x32, .f32⟩
  | .local _ .vmem, ⟨3, _⟩ => ⟨S1x32, .f32⟩
  | .local _ .vmem, ⟨4, _⟩ => ⟨S32x32, .f32⟩
  | .local _ .vmem, ⟨5, _⟩ => ⟨S1x32, .f32⟩
  | .local _ .vmem, ⟨6, _⟩ => ⟨S10000x32, .f32⟩
  | .local _ .vmem, ⟨7, _⟩ => ⟨S10000x32, .f32⟩
  | .local _ .vmem, ⟨8, _⟩ => ⟨S10000x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S32x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S10000x33, .f32⟩
  | .local _ .vmem, ⟨18, _⟩ => ⟨S10000x33, .f32⟩
  | .local _ .vmem, ⟨19, _⟩ => ⟨S10000x32, .f32⟩
  | .local _ .vmem, ⟨20, _⟩ => ⟨S10000x32, .f32⟩
  | .local _ .vmem, ⟨21, _⟩ => ⟨S32x32, .f32⟩
  | .local _ .vmem, ⟨22, _⟩ => ⟨S1x32, .f32⟩
  | .local _ .vmem, ⟨23, _⟩ => ⟨S10000x32, .f32⟩
  | .local _ .vmem, ⟨24, _⟩ => ⟨S10000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_1 : Ref sig .tc := ⟨.hbm, 33, rfl⟩
abbrev main_v18 : Ref sig .tc := ⟨.hbm, 34, rfl⟩
abbrev main_v19 : Ref sig .tc := ⟨.hbm, 35, rfl⟩
abbrev main_c_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem5_1 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S10000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x33 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S64x32_S32x32_0_0 : S64x32.Slices ![0, 0] S32x32
  slices_S64x32_S32x32_32_0 : S64x32.Slices ![32, 0] S32x32
  shapeCasts_S32_S1x32 : S32.ShapeCasts S1x32
  inb_S10000x32_S10000x32_0_0 : ∀ a, (![0, 0] : Fin 2 → Nat) a + S10000x32.size a ≤ S10000x32.size a
  h_S10000x32 : 0 < S10000x32.numel
  inb_S32x32_S32x32_0_0 : ∀ a, (![0, 0] : Fin 2 → Nat) a + S32x32.size a ≤ S32x32.size a
  h_S32x32 : 0 < S32x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  shapeCasts_S32x32_S32x32 : S32x32.ShapeCasts S32x32
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x32_0_1 : S3200000x1.BroadcastsInDim S3200000x32 (![0, 1] : Fin 2 → Fin S3200000x32.rank)
  bcast_S_S50000x32 : S_.BroadcastsInDim S50000x32 (![] : Fin 0 → Fin S50000x32.rank)
  shapeCasts_S10000x32_S10000x32 : S10000x32.ShapeCasts S10000x32
  bcast_S_S3200000x1 : S_.BroadcastsInDim S3200000x1 (![] : Fin 0 → Fin S3200000x1.rank)
  concatenates_S3200000x32_S3200000x1_S3200000x33_d1 : Shape.Concatenates [S3200000x32, S3200000x1] S3200000x33 1
  bcast_S_S100000x33 : S_.BroadcastsInDim S100000x33 (![] : Fin 0 → Fin S100000x33.rank)
  inb_S10000x33_S10000x1_0_32 : ∀ a, (![0, 32] : Fin 2 → Nat) a + S10000x1.size a ≤ S10000x33.size a
  h_S10000x1 : 0 < S10000x1.numel
  shapeCasts_S10000x1_S10000x1 : S10000x1.ShapeCasts S10000x1
  inb_S10000x33_S10000x32_0_0 : ∀ a, (![0, 0] : Fin 2 → Nat) a + S10000x32.size a ≤ S10000x33.size a
  broadcasts_S10000x1_S10000x32 : S10000x1.Broadcasts S10000x32
  dot_S10000x32_S32x32_S10000x32_1_0_0_1_n_n_wf : DotDims.WF S10000x32 S32x32 S10000x32 [1] [0] [0] [1] [] []
  gather_S100000x32_S3200000x1_S3200000x32_1_0_n_n_0_1_132_wf : GatherDims.WF S100000x32 S3200000x1 S3200000x32 [1] [0] [] [0] [] 1 ![1, 32]
  scatter_S50000x32_S3200000x1_S3200000x32_1_0_0_1_wf : ScatterDims.WF S50000x32 S3200000x1 S3200000x32 [1] [0] [0] 1
  gather_S50000x32_S3200000x1_S3200000x32_1_0_n_n_0_1_132_wf : GatherDims.WF S50000x32 S3200000x1 S3200000x32 [1] [0] [] [0] [] 1 ![1, 32]
  scatter_S100000x33_S3200000x1_S3200000x33_1_0_0_1_wf : ScatterDims.WF S100000x33 S3200000x1 S3200000x33 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x32.size a ≤ S100000x32.size a
  hwx0_5 : ∀ i : grid0.Coords, EltTy.bits .f32 = 32 ∨ (Rect.block (s := S100000x32) S10000x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x32.size a ≤ S100000x32.size a
  hwx0_6 : ∀ i : grid0.Coords, EltTy.bits .f32 = 32 ∨ (Rect.block (s := S100000x32) S10000x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S50000x32.size a
  hwx1_0 : ∀ i : grid1.Coords, EltTy.bits .f32 = 32 ∨ (Rect.block (s := S50000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .f32 = 32 ∨ (Rect.block (s := S32x32) S32x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S50000x32.size a
  hwx1_2 : ∀ i : grid1.Coords, EltTy.bits .f32 = 32 ∨ (Rect.block (s := S50000x32) S10000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x33.size a ≤ S100000x33.size a
  hwx2_1 : ∀ i : grid2.Coords, EltTy.bits .f32 = 32 ∨ (Rect.block (s := S100000x33) S10000x33.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .f32 = 32 ∨ (Rect.block (s := S32x32) S32x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x32.size a ≤ S100000x32.size a
  hwx2_5 : ∀ i : grid2.Coords, EltTy.bits .f32 = 32 ∨ (Rect.block (s := S100000x32) S10000x32.size (cc2_transform_5 i) (hinb2_5 i)).WholeWords (EltTy.packing .f32)

variable [Facts₀]

def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S50000x32_S3200000x1_S3200000x32_1_0_0_1 : ScatterDims S50000x32 S3200000x1 S3200000x32 where
  updateWindowDims := [1]
  insertedWindowDims := [0]
  scatterDimsToOperandDims := [0]
  indexVectorDim := 1
  wf := scatter_S50000x32_S3200000x1_S3200000x32_1_0_0_1_wf
def gather_S50000x32_S3200000x1_S3200000x32_1_0_n_n_0_1_132 : GatherDims S50000x32 S3200000x1 S3200000x32 where
  offsetDims := [1]
  collapsedSliceDims := [0]
  operandBatchingDims := []
  startIndicesBatchingDims := []
  startIndexMap := [0]
  indexVectorDim := 1
  sliceSizes := ![1, 32]
  wf := gather_S50000x32_S3200000x1_S3200000x32_1_0_n_n_0_1_132_wf
def scatter_S100000x33_S3200000x1_S3200000x33_1_0_0_1 : ScatterDims S100000x33 S3200000x1 S3200000x33 where
  updateWindowDims := [1]
  insertedWindowDims := [0]
  scatterDimsToOperandDims := [0]
  indexVectorDim := 1
  wf := scatter_S100000x33_S3200000x1_S3200000x33_1_0_0_1_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S10000x32.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S10000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v4_1) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S10000x33.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S10000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v31) S10000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x32 : Shape := ⟨2, ![100000, 32]⟩
abbrev S3200000x1 : Shape := ⟨2, ![3200000, 1]⟩
abbrev S32x32 : Shape := ⟨2, ![32, 32]⟩
abbrev S32 : Shape := ⟨1, ![32]⟩
abbrev S64x32 : Shape := ⟨2, ![64, 32]⟩
abbrev S3200000 : Shape := ⟨1, ![3200000]⟩
abbrev S1x32 : Shape := ⟨2, ![1, 32]⟩
abbrev S_ : Shape := ⟨0, ![]⟩
abbrev S3200000x32 : Shape := ⟨2, ![3200000, 32]⟩
abbrev S50000x32 : Shape := ⟨2, ![50000, 32]⟩
abbrev S3200000x64 : Shape := ⟨2, ![3200000, 64]⟩

abbrev nBuf : Space → Nat
  | .hbm => 68
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S100000x32, .f32⟩
  | .hbm, ⟨2, _⟩ => ⟨S3200000x1, .f32⟩
  | .hbm, ⟨3, _⟩ => ⟨S32x32, .f32⟩
  | .hbm, ⟨4, _⟩ => ⟨S32, .f32⟩
  | .hbm, ⟨5, _⟩ => ⟨S64x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S3200000, .i32⟩
  | .hbm, ⟨10, _⟩ => ⟨S3200000, .i32⟩
  | .hbm, ⟨11, _⟩ => ⟨S100000x32, .f32⟩
  | .hbm, ⟨12, _⟩ => ⟨S1x32, .f32⟩
  | .hbm, ⟨13, _⟩ => ⟨S100000x32, .f32⟩
  | .hbm, ⟨14, _⟩ => ⟨S100000x32, .f32⟩
  | .hbm, ⟨15, _⟩ => ⟨S_, .i32⟩
  | .hbm, ⟨16, _⟩ => ⟨S3200000, .i32⟩
  | .hbm, ⟨17, _⟩ => ⟨S3200000, .i1⟩
  | .hbm, ⟨18, _⟩ => ⟨S_, .i32⟩
  | .hbm, ⟨19, _⟩ => ⟨S3200000, .i32⟩
  | .hbm, ⟨20, _⟩ => ⟨S3200000, .i32⟩
  | .hbm, ⟨21, _⟩ => ⟨S3200000, .i32⟩
  | .hbm, ⟨22, _⟩ => ⟨S3200000x1, .i32⟩
  | .hbm, ⟨23, _⟩ => ⟨S3200000x32, .f32⟩
  | .hbm, ⟨24, _⟩ => ⟨S3200000x32, .f32⟩
  | .hbm, ⟨25, _⟩ => ⟨S3200000x32, .f32⟩
  | .hbm, ⟨26, _⟩ => ⟨S_, .f32⟩
  | .hbm, ⟨27, _⟩ => ⟨S50000x32, .f32⟩
  | .hbm, ⟨28, _⟩ => ⟨S3200000x1, .i32⟩
  | .hbm, ⟨29, _⟩ => ⟨S50000x32, .f32⟩
  | .hbm, ⟨30, _⟩ => ⟨S_, .i32⟩
  | .hbm, ⟨31, _⟩ => ⟨S3200000, .i32⟩
  | .hbm, ⟨32, _⟩ => ⟨S3200000, .i1⟩
  | .hbm, ⟨33, _⟩ => ⟨S_, .i32⟩
  | .hbm, ⟨34, _⟩ => ⟨S3200000, .i32⟩
  | .hbm, ⟨35, _⟩ => ⟨S3200000, .i32⟩
  | .hbm, ⟨36, _⟩ => ⟨S3200000, .i32⟩
  | .hbm, ⟨37, _⟩ => ⟨S3200000x1, .i32⟩
  | .hbm, ⟨38, _⟩ => ⟨S3200000x32, .f32⟩
  | .hbm, ⟨39, _⟩ => ⟨S_, .i32⟩
  | .hbm, ⟨40, _⟩ => ⟨S3200000, .i32⟩
  | .hbm, ⟨41, _⟩ => ⟨S3200000, .i1⟩
  | .hbm, ⟨42, _⟩ => ⟨S_, .i32⟩
  | .hbm, ⟨43, _⟩ => ⟨S3200000, .i32⟩
  | .hbm, ⟨44, _⟩ => ⟨S3200000, .i32⟩
  | .hbm, ⟨45, _⟩ => ⟨S3200000, .i32⟩
  | .hbm, ⟨46, _⟩ => ⟨S3200000x1, .i32⟩
  | .hbm, ⟨47, _⟩ => ⟨S3200000x32, .f32⟩
  | .hbm, ⟨48, _⟩ => ⟨S3200000x64, .f32⟩
  | .hbm, ⟨49, _⟩ => ⟨S3200000x32, .f32⟩
  | .hbm, ⟨50, _⟩ => ⟨S1x32, .f32⟩
  | .hbm, ⟨51, _⟩ => ⟨S3200000x32, .f32⟩
  | .hbm, ⟨52, _⟩ => ⟨S3200000x32, .f32⟩
  | .hbm, ⟨53, _⟩ => ⟨S_, .f32⟩
  | .hbm, ⟨54, _⟩ => ⟨S100000x32, .f32⟩
  | .hbm, ⟨55, _⟩ => ⟨S3200000x1, .i32⟩
  | .hbm, ⟨56, _⟩ => ⟨S100000x32, .f32⟩
  | .hbm, ⟨57, _⟩ => ⟨S_, .f32⟩
  | .hbm, ⟨58, _⟩ => ⟨S100000x32, .f32⟩
  | .hbm, ⟨59, _⟩ => ⟨S100000x32, .f32⟩
  | .hbm, ⟨60, _⟩ => ⟨S_, .f32⟩
  | .hbm, ⟨61, _⟩ => ⟨S100000x32, .f32⟩
  | .hbm, ⟨62, _⟩ => ⟨S100000x32, .f32⟩
  | .hbm, ⟨63, _⟩ => ⟨S100000x32, .f32⟩
  | .hbm, ⟨64, _⟩ => ⟨S100000x32, .f32⟩
  | .hbm, ⟨65, _⟩ => ⟨S1x32, .f32⟩
  | .hbm, ⟨66, _⟩ => ⟨S100000x32, .f32⟩
  | .hbm, ⟨67, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x32_0_1 : S3200000x1.BroadcastsInDim S3200000x32 (![0, 1] : Fin 2 → Fin S3200000x32.rank)
  bcast_S_S50000x32 : S_.BroadcastsInDim S50000x32 (![] : Fin 0 → Fin S50000x32.rank)
  concatenates_S3200000x32_S3200000x32_S3200000x64_d1 : Shape.Concatenates [S3200000x32, S3200000x32] S3200000x64 1
  bcast_S1x32_S3200000x32_0_1 : S1x32.BroadcastsInDim S3200000x32 (![0, 1] : Fin 2 → Fin S3200000x32.rank)
  bcast_S_S100000x32 : S_.BroadcastsInDim S100000x32 (![] : Fin 0 → Fin S100000x32.rank)
  dot_S100000x32_S32x32_S100000x32_1_0_0_1_n_n_wf : DotDims.WF S100000x32 S32x32 S100000x32 [1] [0] [0] [1] [] []
  gather_S100000x32_S3200000x1_S3200000x32_1_0_n_n_0_1_132_wf : GatherDims.WF S100000x32 S3200000x1 S3200000x32 [1] [0] [] [0] [] 1 ![1, 32]
  scatter_S50000x32_S3200000x1_S3200000x32_1_0_0_1_wf : ScatterDims.WF S50000x32 S3200000x1 S3200000x32 [1] [0] [0] 1
  gather_S50000x32_S3200000x1_S3200000x32_1_0_n_n_0_1_132_wf : GatherDims.WF S50000x32 S3200000x1 S3200000x32 [1] [0] [] [0] [] 1 ![1, 32]
  dot_S3200000x64_S64x32_S3200000x32_1_0_0_1_n_n_wf : DotDims.WF S3200000x64 S64x32 S3200000x32 [1] [0] [0] [1] [] []
  scatter_S100000x32_S3200000x1_S3200000x32_1_0_0_1_wf : ScatterDims.WF S100000x32 S3200000x1 S3200000x32 [1] [0] [0] 1

variable [Facts₀]

def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S50000x32_S3200000x1_S3200000x32_1_0_0_1 : ScatterDims S50000x32 S3200000x1 S3200000x32 where
  updateWindowDims := [1]
  insertedWindowDims := [0]
  scatterDimsToOperandDims := [0]
  indexVectorDim := 1
  wf := scatter_S50000x32_S3200000x1_S3200000x32_1_0_0_1_wf
def gather_S50000x32_S3200000x1_S3200000x32_1_0_n_n_0_1_132 : GatherDims S50000x32 S3200000x1 S3200000x32 where
  offsetDims := [1]
  collapsedSliceDims := [0]
  operandBatchingDims := []
  startIndicesBatchingDims := []
  startIndexMap := [0]
  indexVectorDim := 1
  sliceSizes := ![1, 32]
  wf := gather_S50000x32_S3200000x1_S3200000x32_1_0_n_n_0_1_132_wf
def dot_S3200000x64_S64x32_S3200000x32_1_0_0_1_n_n : DotDims S3200000x64 S64x32 S3200000x32 where
  lhsContracting := [1]
  rhsContracting := [0]
  lhsNonContracting := [0]
  rhsNonContracting := [1]
  lhsBatch := []
  rhsBatch := []
  wf := dot_S3200000x64_S64x32_S3200000x32_1_0_0_1_n_n_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf

class Facts : Prop extends Facts₀ where

variable [Facts]
-- ==== Proof.LibProductIx.lean ====
/-
  A matrix product read at an entry, with the operand indices written by their coordinates.

  Two arrangements of dimension numbers, no batch axis in either:
  * [A, K] × [K, B] → [A, B], contracting the left factor's axis 1 with the right factor's axis 0:
    the sum over the contraction index at (p, q) is Σ_{k<K} l(p, k) · r(k, q);
  * [A, S, K] × [B, K] → [A, S, B], contracting the left factor's last axis with the right factor's axis 1 (the
    right factor used by rows: x · Wᵀ on every row of a stack of rows): the sum at (a, s, b) is
    Σ_{k<K} l(a, s, k) · r(b, k).
  So a product into a zero accumulator or a host dot_general is that sum, and reads one row of each factor.
  General: nothing here depends on a particular program. An instance supplies the kept coordinates (`hl0`, `hr1`, …: each is
  `unfold DotDims.lhsIdx; rw [dif_neg …, dif_pos …]; rfl` for literal dimension numbers) and `rfl` four times.
-/
import Idealize.ShloMosaic.Lib.ValueIdx
import Idealize.ShloMosaic.PureOps.Ideal.Laws

noncomputable section

namespace Cert.LibProductIx

open Idealize.ShloMosaic Idealize.ShloMosaic.ValueIdx

/-- [A, K] × [K, B]: the sum over the contraction index at (p, q) is Σ_k l(p, k) · r(k, q). -/
theorem sum_rows_cols {A B K : Nat} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hl0 : ∀ (j : (⟨2, ![A, B]⟩ : Shape).Idx) (q : d.contr.Idx), (d.lhsIdx j q 0).val = (j 0).val)
    (hr1 : ∀ (j : (⟨2, ![A, B]⟩ : Shape).Idx) (q : d.contr.Idx), (d.rhsIdx j q 1).val = (j 1).val)
    (l : FVec Ideal (⟨2, ![A, K]⟩ : Shape) φ₁) (r : FVec Ideal (⟨2, ![K, B]⟩ : Shape) φ₂) (p : Fin A) (q : Fin B) :
    ∑ c : d.contr.Idx, l (d.lhsIdx (ix2 p q) c) * r (d.rhsIdx (ix2 p q) c) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k :=
    funext fun a => Fin.ext (by
      match a with
      | ⟨0, _⟩ => exact hl0 (ix2 p q) _
      | ⟨1, _⟩ => exact (d.lhsIdx_val_of_single hlc (ix2 p q) _).trans hk)
  have er : d.rhsIdx (ix2 p q) ((contrEquiv1 d K hr hs).symm k) = ix2 k q :=
    funext fun a => Fin.ext (by
      match a with
      | ⟨0, _⟩ => exact (d.rhsIdx_val_of_single hrc (ix2 p q) _).trans hk
      | ⟨1, _⟩ => exact hr1 (ix2 p q) _)
  rw [el, er]

/-- [A, S, K] × [B, K]: the sum over the contraction index at (a, s, b) is Σ_k l(a, s, k) · r(b, k). -/
theorem sum_stack_rows {A S B K : Nat} {φ₁ φ₂ : FTy}
    (d : DotDims (⟨3, ![A, S, K]⟩ : Shape) (⟨2, ![B, K]⟩ : Shape) (⟨3, ![A, S, B]⟩ : Shape))
    (hr : d.contr.rank = 1) (hs : d.contr.size ⟨0, by omega⟩ = K)
    (hlc : d.lhsContracting = [(2 : Fin 3)]) (hrc : d.rhsContracting = [(1 : Fin 2)])
    (hl0 : ∀ (j : (⟨3, ![A, S, B]⟩ : Shape).Idx) (q : d.contr.Idx), (d.lhsIdx j q 0).val = (j 0).val)
    (hl1 : ∀ (j : (⟨3, ![A, S, B]⟩ : Shape).Idx) (q : d.contr.Idx), (d.lhsIdx j q 1).val = (j 1).val)
    (hr0 : ∀ (j : (⟨3, ![A, S, B]⟩ : Shape).Idx) (q : d.contr.Idx), (d.rhsIdx j q 0).val = (j 2).val)
    (l : FVec Ideal (⟨3, ![A, S, K]⟩ : Shape) φ₁) (r : FVec Ideal (⟨2, ![B, K]⟩ : Shape) φ₂) (a : Fin A) (s : Fin S) (b : Fin B) :
    ∑ c : d.contr.Idx, l (d.lhsIdx (ix3 a s b) c) * r (d.rhsIdx (ix3 a s b) c) = ∑ k : Fin K, l (ix3 a s k) * r (ix2 b k) := by
  rw [← Equiv.sum_comp (contrEquiv1 d K hr hs).symm]
  refine Finset.sum_congr rfl fun k _ => ?_
  have hk := contrEquiv1_symm_val d K hr hs k
  have el : d.lhsIdx (ix3 a s b) ((contrEquiv1 d K hr hs).symm k) = ix3 a s k :=
    funext fun c => Fin.ext (by
      match c with
      | ⟨0, _⟩ => exact hl0 (ix3 a s b) _
      | ⟨1, _⟩ => exact hl1 (ix3 a s b) _
      | ⟨2, _⟩ => exact (d.lhsIdx_val_of_single hlc (ix3 a s b) _).trans hk)
  have er : d.rhsIdx (ix3 a s b) ((contrEquiv1 d K hr hs).symm k) = ix2 b k :=
    funext fun c => Fin.ext (by
      match c with
      | ⟨0, _⟩ => exact hr0 (ix3 a s b) _
      | ⟨1, _⟩ => exact (d.rhsIdx_val_of_single hrc (ix3 a s b) _).trans hk)
  rw [el, er]

end Cert.LibProductIx

end
-- ==== Proof.LibPlainDot.lean ====
/-
  A product of two matrices whose dimension numbers are the plain ones — no batch axis, the left factor's axis 1
  contracted with the right factor's axis 0, the kept axes the left factor's rows and the right factor's columns —
  read at an entry (p, q): into the zero accumulator it is Σ_k l(p,k) · r(k,q). The two facts a reading needs about
  the kept coordinates (the left factor is read in row p, the right factor in column q) are proved here once from the
  dimension numbers' lists, for any record with those lists.
  General: nothing here depends on a particular program.
-/
import proofs.«102758_j63153199120592_2_alg».proof.Proof.LibProductIx

noncomputable section

open scoped BigOperators

namespace Cert.LibPlainDot

open Idealize.ShloMosaic Idealize.ShloMosaic.ValueIdx

variable {A B K : Nat}

/-- The left factor is read in the row of the result's entry. -/
theorem lhs_row (d : DotDims (⟨2, ![A, K]⟩ : Shape) (⟨2, ![K, B]⟩ : Shape) (⟨2, ![A, B]⟩ : Shape))
    (hlb : d.lhsBatch = []) (hln : d.lhsNonContracting = [(0 : Fin 2)])
    (j : (⟨2, ![A, B]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b →
      (j (⟨a, ha⟩ : Fin 2)).val = (j (⟨b, hb⟩ : Fin 2)).val := fun a b ha hb h => by subst h; rfl
  exact key _ _ _ _ (by simp [hlb, hln])

/-- The right factor is read in the column of the result's entry. -/
theorem rhs_col (d : DotDims (⟨2, ![A, K]⟩ : Shape) (⟨2, ![K, B]⟩ : Shape) (⟨2, ![A, B]⟩ : Shape))
    (hlb : d.lhsBatch = []) (hln : d.lhsNonContracting = [(0 : Fin 2)])
    (hrb : d.rhsBatch = []) (hrn : d.rhsNonContracting = [(1 : Fin 2)])
    (j : (⟨2, ![A, B]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b →
      (j (⟨a, ha⟩ : Fin 2)).val = (j (⟨b, hb⟩ : Fin 2)).val := fun a b ha hb h => by subst h; rfl
  exact key _ _ _ _ (by simp [hlb, hln, hrn])

/-- The contraction sum of a plain product at (p, q). -/
theorem sum_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (l : FVec Ideal (⟨2, ![A, K]⟩ : Shape) φ₁) (r : FVec Ideal (⟨2, ![K, B]⟩ : Shape) φ₂) (p : Fin A) (q : Fin B) :
    ∑ c : d.contr.Idx, l (d.lhsIdx (ix2 p q) c) * r (d.rhsIdx (ix2 p q) c) = ∑ k : Fin K, l (ix2 p k) * r (ix2 k q) :=
  Cert.LibProductIx.sum_rows_cols d hr hs hlc hrc (lhs_row d hlb hln) (rhs_col d hlb hln hrb hrn) l r p q

/-- A plain product into the zero accumulator, at (p, q). -/
theorem matmul_zero_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (⟨2, ![A, B]⟩ : Shape) .f32 0x00000000#32) (ix2 p q)
      = ∑ k : Fin K, l (ix2 p k) * r (ix2 k q) := by
  rw [Ideal.matmul_constant_zero_apply]
  exact sum_at d hr hs hlc hrc hlb hln hrb hrn l r p q

/-- A host product with the plain dimension numbers, at (p, q). -/
theorem dotGeneral_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (prec : Option ContractPrecision) (sched : HostSchedule)
    (l : FVec Ideal (⟨2, ![A, K]⟩ : Shape) φ₁) (r : FVec Ideal (⟨2, ![K, B]⟩ : Shape) φ₂) (p : Fin A) (q : Fin B) :
    FloatOps.dotGeneral d prec sched l r (ix2 p q) = ∑ k : Fin K, l (ix2 p k) * r (ix2 k q) := by
  rw [Ideal.dotGeneral_apply]
  exact sum_at d hr hs hlc hrc hlb hln hrb hrn l r p q

end Cert.LibPlainDot

end
-- ==== Proof.RowMaps.lean ====
/-
  The row maps this kernel is built from, each as one function of whole arrays, entry by entry, on the extended reals.

  * `rowDot x w p q` — row `p` of `x` against column `q` of `w`: Σ_k x(p,k) · w(k,q);
  * `affine x w b` — every row of `x` through the matrix `w`, plus the bias row `b`: x·w + b;
  * `product x w` — x·w;
  * `blend x2 s x0 w b` — with `s` a table of 33 columns whose last column is a count and whose first 32 columns are a
    summed message: ((½·(count · x2 + message) + ½·x0) · w) + b.
-/
import Idealize.ShloMosaic.PureOps.Ideal
import Idealize.ShloMosaic.Lib.ValueIdx

noncomputable section

open scoped BigOperators

namespace Cert.RowMaps

open Idealize.ShloMosaic Idealize.ShloMosaic.ValueIdx

/-- Row `p` of `x` against column `q` of `w`. -/
def rowDot {R K C : Nat} (x : (⟨2, ![R, K]⟩ : Shape).Idx → EReal) (w : (⟨2, ![K, C]⟩ : Shape).Idx → EReal)
    (p : Fin R) (q : Fin C) : EReal :=
  ∑ k : Fin K, x (ix2 p k) * w (ix2 k q)

/-- x·w + b, the bias a row. -/
def affine {R K C : Nat} (x : (⟨2, ![R, K]⟩ : Shape).Idx → EReal) (w : (⟨2, ![K, C]⟩ : Shape).Idx → EReal)
    (b : (⟨2, ![1, C]⟩ : Shape).Idx → EReal) : (⟨2, ![R, C]⟩ : Shape).Idx → EReal :=
  fun i => rowDot x w (i 0) (i 1) + b (ix2 (0 : Fin 1) (i 1))

/-- x·w. -/
def product {R K C : Nat} (x : (⟨2, ![R, K]⟩ : Shape).Idx → EReal) (w : (⟨2, ![K, C]⟩ : Shape).Idx → EReal) :
    (⟨2, ![R, C]⟩ : Shape).Idx → EReal :=
  fun i => rowDot x w (i 0) (i 1)

/-- The half-and-half mix of (count · x2 + message) with x0, entry (p, k); one half is the f32 pattern 0x3F000000. -/
def mixAt {R : Nat} (x2 : (⟨2, ![R, 32]⟩ : Shape).Idx → EReal) (s : (⟨2, ![R, 33]⟩ : Shape).Idx → EReal)
    (x0 : (⟨2, ![R, 32]⟩ : Shape).Idx → EReal) (p : Fin R) (k : Fin 32) : EReal :=
  Ideal.ofBits .f32 0x3F000000#32 * (s (ix2 p (32 : Fin 33)) * x2 (ix2 p k) + s (ix2 p ⟨k.val, by omega⟩))
    + Ideal.ofBits .f32 0x3F000000#32 * x0 (ix2 p k)

/-- ((½·(count · x2 + message) + ½·x0) · w) + b. -/
def blend {R : Nat} (x2 : (⟨2, ![R, 32]⟩ : Shape).Idx → EReal) (s : (⟨2, ![R, 33]⟩ : Shape).Idx → EReal)
    (x0 : (⟨2, ![R, 32]⟩ : Shape).Idx → EReal) (w : (⟨2, ![32, 32]⟩ : Shape).Idx → EReal)
    (b : (⟨2, ![1, 32]⟩ : Shape).Idx → EReal) : (⟨2, ![R, 32]⟩ : Shape).Idx → EReal :=
  fun i => (∑ k : Fin 32, mixAt x2 s x0 (i 0) k * w (ix2 k (i 1))) + b (ix2 (0 : Fin 1) (i 1))

end Cert.RowMaps

end
-- ==== Proof.NodeMaps.lean ====
/-
  The first launch: every block of 10000 rows of the node table goes through two 32×32 matrices, each with its bias
  row, and the two results are written back block by block. Read as whole arrays, the two outputs are the affine row
  maps x·w₁ + b₁ and x·w₂ + b₂ of the whole table: a block's row r of grid point t is row 10000·t + r of the table,
  the matrices and bias rows are whole at every point, and the ten blocks tile the 100000 rows.
-/
import proofs.«102758_j63153199120592_2_alg».proof.Proof.Gen.KernelIdeal.Frame
import proofs.«102758_j63153199120592_2_alg».proof.Proof.LibPlainDot
import proofs.«102758_j63153199120592_2_alg».proof.Proof.RowMaps
import Idealize.ShloMosaic.Lib.Pipeline.Value
import Idealize.ShloMosaic.Lib.ValueLayout
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.NodeMaps

open Cert.KernelIdeal Cert.KernelIdeal.Gen Cert.RowMaps

theorem hz : (![0, 0] : Fin 2 → Nat) = fun _ => 0 := funext fun a => by fin_cases a <;> rfl

/-- A block's body value at entry (p, q): row p of the block through the matrix, plus the bias row. -/
theorem pay1_at (v0 : Vec Ideal S10000x32 .f32) (v1 : Vec Ideal S32x32 .f32) (v3 : Vec Ideal S1x32 .f32)
    (p : Fin 10000) (q : Fin 32) :
    k0_pay1 (F := Ideal) v0 v1 v3 (ix2 p q) = rowDot v0 v1 p q + v3 (ix2 (0 : Fin 1) q) := by
  unfold k0_pay1
  rw [addf_apply, shapeCast_self, broadcastTo_1b_ab_apply]
  exact congrArg (· + v3 (ix2 (0 : Fin 1) q))
    (Cert.LibPlainDot.matmul_zero_at dot_S10000x32_S32x32_S10000x32_1_0_0_1_n_n rfl rfl rfl rfl rfl rfl rfl rfl none v0 v1 p q)

theorem pay2_at (v0 : Vec Ideal S10000x32 .f32) (v8 : Vec Ideal S32x32 .f32) (v11 : Vec Ideal S1x32 .f32)
    (p : Fin 10000) (q : Fin 32) :
    k0_pay2 (F := Ideal) v0 v8 v11 (ix2 p q) = rowDot v0 v8 p q + v11 (ix2 (0 : Fin 1) q) := by
  unfold k0_pay2
  rw [addf_apply, shapeCast_self, shapeCast_self, broadcastTo_1b_ab_apply]
  exact congrArg (· + v11 (ix2 (0 : Fin 1) q))
    (Cert.LibPlainDot.matmul_zero_at dot_S10000x32_S32x32_S10000x32_1_0_0_1_n_n rfl rfl rfl rfl rfl rfl rfl rfl none v0 v8 p q)

/-- The printed index maps over the grid: the row-blocked windows sit at block (t, 0), the whole ones at (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-- Row p of the table's block at point t is row 10000·t + p of the table. -/
theorem rows_at (c : Dev nD) (t : Fin cfg0.N) (p : Fin 10000) (k : Fin 32) (r : Fin 100000)
    (hr : r.val = t.val * 10000 + p.val) : iblk0 V c 0 t (ix2 p k) = V c main_arg0 (ix2 r k) := by
  obtain ⟨e00, e01, -⟩ := idx_facts t
  show V c main_arg0 (((cfg0.win 0).blk t).view.emb (ix2 p k)) = V c main_arg0 (ix2 r k)
  refine congrArg (V c main_arg0) ?_
  funext a; apply Fin.ext
  match a with
  | ⟨0, _⟩ => show win0_0.index t (0 : Fin 2) * 10000 + 1 * p.val = r.val; omega
  | ⟨1, _⟩ => show win0_0.index t (1 : Fin 2) * 32 + 1 * k.val = k.val; omega

/-- The matrices and bias rows are staged whole at every point. -/
theorem w1_at (c : Dev nD) (t : Fin cfg0.N) (k q : Fin 32) : iblk0 V c 1 t (ix2 k q) = V c main_arg3 (ix2 k q) := by
  obtain ⟨-, -, e10, e11, -⟩ := idx_facts t
  show V c main_arg3 (((cfg0.win 1).blk t).view.emb (ix2 k q)) = V c main_arg3 (ix2 k q)
  refine congrArg (V c main_arg3) ?_
  funext a; apply Fin.ext
  match a with
  | ⟨0, _⟩ => show win0_1.index t (0 : Fin 2) * 32 + 1 * k.val = k.val; omega
  | ⟨1, _⟩ => show win0_1.index t (1 : Fin 2) * 32 + 1 * q.val = q.val; omega

theorem b1_at (c : Dev nD) (t : Fin cfg0.N) (u : Fin 1) (q : Fin 32) : iblk0 V c 2 t (ix2 u q) = V c main_v2 (ix2 u q) := by
  obtain ⟨-, -, -, -, e20, e21, -⟩ := idx_facts t
  show V c main_v2 (((cfg0.win 2).blk t).view.emb (ix2 u q)) = V c main_v2 (ix2 u q)
  refine congrArg (V c main_v2) ?_
  funext a; apply Fin.ext
  match a with
  | ⟨0, _⟩ => show win0_2.index t (0 : Fin 2) * 1 + 1 * u.val = u.val; omega
  | ⟨1, _⟩ => show win0_2.index t (1 : Fin 2) * 32 + 1 * q.val = q.val; omega

theorem w2_at (c : Dev nD) (t : Fin cfg0.N) (k q : Fin 32) : iblk0 V c 3 t (ix2 k q) = V c main_v0 (ix2 k q) := by
  obtain ⟨-, -, -, -, -, -, e30, e31, -⟩ := idx_facts t
  show V c main_v0 (((cfg0.win 3).blk t).view.emb (ix2 k q)) = V c main_v0 (ix2 k q)
  refine congrArg (V c main_v0) ?_
  funext a; apply Fin.ext
  match a with
  | ⟨0, _⟩ => show win0_3.index t (0 : Fin 2) * 32 + 1 * k.val = k.val; omega
  | ⟨1, _⟩ => show win0_3.index t (1 : Fin 2) * 32 + 1 * q.val = q.val; omega

theorem b2_at (c : Dev nD) (t : Fin cfg0.N) (u : Fin 1) (q : Fin 32) : iblk0 V c 4 t (ix2 u q) = V c main_v3 (ix2 u q) := by
  obtain ⟨-, -, -, -, -, -, -, -, e40, e41, -⟩ := idx_facts t
  show V c main_v3 (((cfg0.win 4).blk t).view.emb (ix2 u q)) = V c main_v3 (ix2 u q)
  refine congrArg (V c main_v3) ?_
  funext a; apply Fin.ext
  match a with
  | ⟨0, _⟩ => show win0_4.index t (0 : Fin 2) * 1 + 1 * u.val = u.val; omega
  | ⟨1, _⟩ => show win0_4.index t (1 : Fin 2) * 32 + 1 * q.val = q.val; omega

/-- What point t writes back through the first output window is block t of the affine map of the entry arrays. -/
theorem flushed5_eq (c : Dev nD) (t : Fin cfg0.N) :
    (dat0 V c).flushed 5 t
      = ((cfg0.win 5).blk t).view.read (Elt Ideal) (affine (V c main_arg0) (V c main_arg3) (V c main_v2)) := by
  show (cfg0.win 5).cut (grid0.coords t) ((dat0 V c).after 5 t) = _
  rw [after0_5]
  unfold out0_5
  rw [View.canon_unit_zero hz]
  simp only [View.ld_unit_zero (S := S10000x32) hz, View.ld_unit_zero (S := S32x32) hz, View.ld_unit_zero (S := S1x32) hz]
  obtain ⟨-, -, -, -, -, -, -, -, -, -, e50, e51, -⟩ := idx_facts t
  funext j
  obtain ⟨p, q, rfl⟩ : ∃ (p : Fin 10000) (q : Fin 32), j = ix2 p q := ⟨j 0, j 1, eq_ix2 j⟩
  have hN : grid0.N = 10 := N_0
  have ht : t.val < 10 := hN ▸ t.isLt
  let r : Fin 100000 := ⟨t.val * 10000 + p.val, by have := p.isLt; omega⟩
  have hemb : ((cfg0.win 5).blk t).view.emb (ix2 p q) = ix2 r q := by
    funext a; apply Fin.ext
    match a with
    | ⟨0, _⟩ => show win0_5.index t (0 : Fin 2) * 10000 + 1 * p.val = t.val * 10000 + p.val; omega
    | ⟨1, _⟩ => show win0_5.index t (1 : Fin 2) * 32 + 1 * q.val = q.val; omega
  show k0_pay1 (F := Ideal) (iblk0 V c 0 t) (iblk0 V c 1 t) (iblk0 V c 2 t) (ix2 p q)
    = affine (V c main_arg0) (V c main_arg3) (V c main_v2) (((cfg0.win 5).blk t).view.emb (ix2 p q))
  rw [pay1_at, hemb]
  show rowDot (iblk0 V c 0 t) (iblk0 V c 1 t) p q + iblk0 V c 2 t (ix2 (0 : Fin 1) q)
    = rowDot (V c main_arg0) (V c main_arg3) r q + V c main_v2 (ix2 (0 : Fin 1) q)
  rw [b1_at]
  refine congrArg (· + V c main_v2 (ix2 (0 : Fin 1) q)) ?_
  unfold rowDot
  refine Finset.sum_congr rfl fun k _ => ?_
  rw [rows_at V c t p k r rfl, w1_at]

/-- The same through the second output window, with the second matrix and bias row. -/
theorem flushed6_eq (c : Dev nD) (t : Fin cfg0.N) :
    (dat0 V c).flushed 6 t
      = ((cfg0.win 6).blk t).view.read (Elt Ideal) (affine (V c main_arg0) (V c main_v0) (V c main_v3)) := by
  show (cfg0.win 6).cut (grid0.coords t) ((dat0 V c).after 6 t) = _
  rw [after0_6]
  unfold out0_6
  rw [View.canon_unit_zero hz]
  simp only [View.ld_unit_zero (S := S10000x32) hz, View.ld_unit_zero (S := S32x32) hz, View.ld_unit_zero (S := S1x32) hz]
  obtain ⟨-, -, -, -, -, -, -, -, -, -, -, -, e60, e61⟩ := idx_facts t
  funext j
  obtain ⟨p, q, rfl⟩ : ∃ (p : Fin 10000) (q : Fin 32), j = ix2 p q := ⟨j 0, j 1, eq_ix2 j⟩
  have hN : grid0.N = 10 := N_0
  have ht : t.val < 10 := hN ▸ t.isLt
  let r : Fin 100000 := ⟨t.val * 10000 + p.val, by have := p.isLt; omega⟩
  have hemb : ((cfg0.win 6).blk t).view.emb (ix2 p q) = ix2 r q := by
    funext a; apply Fin.ext
    match a with
    | ⟨0, _⟩ => show win0_6.index t (0 : Fin 2) * 10000 + 1 * p.val = t.val * 10000 + p.val; omega
    | ⟨1, _⟩ => show win0_6.index t (1 : Fin 2) * 32 + 1 * q.val = q.val; omega
  show k0_pay2 (F := Ideal) (iblk0 V c 0 t) (iblk0 V c 3 t) (iblk0 V c 4 t) (ix2 p q)
    = affine (V c main_arg0) (V c main_v0) (V c main_v3) (((cfg0.win 6).blk t).view.emb (ix2 p q))
  rw [pay2_at, hemb]
  show rowDot (iblk0 V c 0 t) (iblk0 V c 3 t) p q + iblk0 V c 4 t (ix2 (0 : Fin 1) q)
    = rowDot (V c main_arg0) (V c main_v0) r q + V c main_v3 (ix2 (0 : Fin 1) q)
  rw [b2_at]
  refine congrArg (· + V c main_v3 (ix2 (0 : Fin 1) q)) ?_
  unfold rowDot
  refine Finset.sum_congr rfl fun k _ => ?_
  rw [rows_at V c t p k r rfl, w2_at]

/-- An entry of an output array lies in point t's block iff each coordinate is in the block's range. -/
theorem mem_blk5 (t : Fin cfg0.N) (i : S100000x32.Idx) :
    i ∈ ((cfg0.win 5).blk t).view.set ↔ ∀ a : Fin 2, win0_5.index t a * S10000x32.size a ≤ (i a).val ∧ (i a).val < win0_5.index t a * S10000x32.size a + S10000x32.size a := by
  show i ∈ ((View.whole main_v4_0).slice (win0_5.rect t)).set ↔ _
  rw [View.set_slice_whole, Rect.mem_set_unit]
  exact Iff.rfl

theorem mem_blk6 (t : Fin cfg0.N) (i : S100000x32.Idx) :
    i ∈ ((cfg0.win 6).blk t).view.set ↔ ∀ a : Fin 2, win0_6.index t a * S10000x32.size a ≤ (i a).val ∧ (i a).val < win0_6.index t a * S10000x32.size a + S10000x32.size a := by
  show i ∈ ((View.whole main_v4_1).slice (win0_6.rect t)).set ↔ _
  rw [View.set_slice_whole, Rect.mem_set_unit]
  exact Iff.rfl

/-- Row r of an output lies in the block of point r / 10000: the ten blocks tile the rows. -/
theorem cover5 (i : S100000x32.Idx) : ∃ t : Fin cfg0.N, (cfg0.win 5).flush t = true ∧ i ∈ ((cfg0.win 5).blk t).view.set := by
  have hi0 : (i 0).val < 100000 := (i 0).isLt
  have hi1 : (i 1).val < 32 := (i 1).isLt
  have hN : grid0.N = 10 := N_0
  have hlt : (i 0).val / 10000 < grid0.N := by omega
  obtain ⟨-, -, -, -, -, -, -, -, -, -, e50, e51, -⟩ := idx_facts ⟨(i 0).val / 10000, hlt⟩
  refine ⟨⟨(i 0).val / 10000, hlt⟩, flush0_5 _, ?_⟩
  rw [mem_blk5]
  intro a
  match a with
  | ⟨0, _⟩ =>
    show win0_5.index ⟨(i 0).val / 10000, hlt⟩ (0 : Fin 2) * 10000 ≤ (i 0).val ∧ (i 0).val < win0_5.index ⟨(i 0).val / 10000, hlt⟩ (0 : Fin 2) * 10000 + 10000
    rw [e50]; show (i 0).val / 10000 * 10000 ≤ (i 0).val ∧ (i 0).val < (i 0).val / 10000 * 10000 + 10000; omega
  | ⟨1, _⟩ =>
    show win0_5.index ⟨(i 0).val / 10000, hlt⟩ (1 : Fin 2) * 32 ≤ (i 1).val ∧ (i 1).val < win0_5.index ⟨(i 0).val / 10000, hlt⟩ (1 : Fin 2) * 32 + 32
    rw [e51]; omega

theorem cover6 (i : S100000x32.Idx) : ∃ t : Fin cfg0.N, (cfg0.win 6).flush t = true ∧ i ∈ ((cfg0.win 6).blk t).view.set := by
  have hi0 : (i 0).val < 100000 := (i 0).isLt
  have hi1 : (i 1).val < 32 := (i 1).isLt
  have hN : grid0.N = 10 := N_0
  have hlt : (i 0).val / 10000 < grid0.N := by omega
  obtain ⟨-, -, -, -, -, -, -, -, -, -, -, -, e60, e61⟩ := idx_facts ⟨(i 0).val / 10000, hlt⟩
  refine ⟨⟨(i 0).val / 10000, hlt⟩, flush0_6 _, ?_⟩
  rw [mem_blk6]
  intro a
  match a with
  | ⟨0, _⟩ =>
    show win0_6.index ⟨(i 0).val / 10000, hlt⟩ (0 : Fin 2) * 10000 ≤ (i 0).val ∧ (i 0).val < win0_6.index ⟨(i 0).val / 10000, hlt⟩ (0 : Fin 2) * 10000 + 10000
    rw [e60]; show (i 0).val / 10000 * 10000 ≤ (i 0).val ∧ (i 0).val < (i 0).val / 10000 * 10000 + 10000; omega
  | ⟨1, _⟩ =>
    show win0_6.index ⟨(i 0).val / 10000, hlt⟩ (1 : Fin 2) * 32 ≤ (i 1).val ∧ (i 1).val < win0_6.index ⟨(i 0).val / 10000, hlt⟩ (1 : Fin 2) * 32 + 32
    rw [e61]; omega

/-- THE TWO OUTPUT ARRAYS after the launch: the affine row maps of the whole table. -/
theorem first_output (c : Dev nD) :
    (dat0 V c).arrAt 5 cfg0.N = affine (V c main_arg0) (V c main_arg3) (V c main_v2) :=
  (dat0 V c).arrAt_eq_of_cover 5 _ (fun t _ => flushed5_eq V c t) cover5

theorem second_output (c : Dev nD) :
    (dat0 V c).arrAt 6 cfg0.N = affine (V c main_arg0) (V c main_v0) (V c main_v3) :=
  (dat0 V c).arrAt_eq_of_cover 6 _ (fun t _ => flushed6_eq V c t) cover6

end Cert.KernelIdeal.NodeMaps

end
-- ==== Proof.EdgeProduct.lean ====
/-
  The second launch: every block of 10000 rows of the edge table goes through one 32×32 matrix (no bias) and is
  written back. Read as a whole array the output is the product x·w of the whole edge table: a block's row r of grid
  point t is row 10000·t + r, the matrix is whole at every point, and the five blocks tile the 50000 rows.
-/
import proofs.«102758_j63153199120592_2_alg».proof.Proof.Gen.KernelIdeal.Frame
import proofs.«102758_j63153199120592_2_alg».proof.Proof.LibPlainDot
import proofs.«102758_j63153199120592_2_alg».proof.Proof.RowMaps
import Idealize.ShloMosaic.Lib.Pipeline.Value
import Idealize.ShloMosaic.Lib.ValueLayout
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.EdgeProduct

open Cert.KernelIdeal Cert.KernelIdeal.Gen Cert.RowMaps

theorem hz : (![0, 0] : Fin 2 → Nat) = fun _ => 0 := funext fun a => by fin_cases a <;> rfl

/-- A block's body value at entry (p, q): row p of the block against column q of the matrix. -/
theorem pay_at (v0 : Vec Ideal S10000x32 .f32) (v2 : Vec Ideal S32x32 .f32) (p : Fin 10000) (q : Fin 32) :
    k1_pay1 (F := Ideal) v0 v2 (ix2 p q) = rowDot v0 v2 p q := by
  unfold k1_pay1
  rw [shapeCast_self, shapeCast_self]
  exact Cert.LibPlainDot.matmul_zero_at dot_S10000x32_S32x32_S10000x32_1_0_0_1_n_n rfl rfl rfl rfl rfl rfl rfl rfl none v0 v2 p q

/-- The printed index maps over the grid. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem N_1 : grid1.N = 5 := by decide

variable (V : (c : Dev nD) → (b : Ref sig .tc) → Buf (Elt Ideal) ((c : Thread nD τ).loc b))

/-- Row p of the edge table's block at point t is row 10000·t + p of the table. -/
theorem rows_at (c : Dev nD) (t : Fin cfg1.N) (p : Fin 10000) (k : Fin 32) (r : Fin 50000)
    (hr : r.val = t.val * 10000 + p.val) : iblk1 V c 0 t (ix2 p k) = V c main_v16 (ix2 r k) := by
  obtain ⟨e00, e01, -⟩ := idx_facts t
  show V c main_v16 (((cfg1.win 0).blk t).view.emb (ix2 p k)) = V c main_v16 (ix2 r k)
  refine congrArg (V c main_v16) ?_
  funext a; apply Fin.ext
  match a with
  | ⟨0, _⟩ => show win1_0.index t (0 : Fin 2) * 10000 + 1 * p.val = r.val; omega
  | ⟨1, _⟩ => show win1_0.index t (1 : Fin 2) * 32 + 1 * k.val = k.val; omega

/-- The matrix is staged whole at every point. -/
theorem w_at (c : Dev nD) (t : Fin cfg1.N) (k q : Fin 32) : iblk1 V c 1 t (ix2 k q) = V c main_v1 (ix2 k q) := by
  obtain ⟨-, -, e10, e11, -⟩ := idx_facts t
  show V c main_v1 (((cfg1.win 1).blk t).view.emb (ix2 k q)) = V c main_v1 (ix2 k q)
  refine congrArg (V c main_v1) ?_
  funext a; apply Fin.ext
  match a with
  | ⟨0, _⟩ => show win1_1.index t (0 : Fin 2) * 32 + 1 * k.val = k.val; omega
  | ⟨1, _⟩ => show win1_1.index t (1 : Fin 2) * 32 + 1 * q.val = q.val; omega

/-- What point t writes back is block t of the product of the entry arrays. -/
theorem flushed_eq (c : Dev nD) (t : Fin cfg1.N) :
    (dat1 V c).flushed 2 t = ((cfg1.win 2).blk t).view.read (Elt Ideal) (product (V c main_v16) (V c main_v1)) := by
  show (cfg1.win 2).cut (grid1.coords t) ((dat1 V c).after 2 t) = _
  rw [after1_2]
  unfold out1_2
  rw [View.canon_unit_zero hz]
  simp only [View.ld_unit_zero (S := S10000x32) hz, View.ld_unit_zero (S := S32x32) hz]
  obtain ⟨-, -, -, -, e20, e21⟩ := idx_facts t
  funext j
  obtain ⟨p, q, rfl⟩ : ∃ (p : Fin 10000) (q : Fin 32), j = ix2 p q := ⟨j 0, j 1, eq_ix2 j⟩
  have hN : grid1.N = 5 := N_1
  have ht : t.val < 5 := hN ▸ t.isLt
  let r : Fin 50000 := ⟨t.val * 10000 + p.val, by have := p.isLt; omega⟩
  have hemb : ((cfg1.win 2).blk t).view.emb (ix2 p q) = ix2 r q := by
    funext a; apply Fin.ext
    match a with
    | ⟨0, _⟩ => show win1_2.index t (0 : Fin 2) * 10000 + 1 * p.val = t.val * 10000 + p.val; omega
    | ⟨1, _⟩ => show win1_2.index t (1 : Fin 2) * 32 + 1 * q.val = q.val; omega
  show k1_pay1 (F := Ideal) (iblk1 V c 0 t) (iblk1 V c 1 t) (ix2 p q)
    = product (V c main_v16) (V c main_v1) (((cfg1.win 2).blk t).view.emb (ix2 p q))
  rw [pay_at, hemb]
  show rowDot (iblk1 V c 0 t) (iblk1 V c 1 t) p q = rowDot (V c main_v16) (V c main_v1) r q
  unfold rowDot
  refine Finset.sum_congr rfl fun k _ => ?_
  rw [rows_at V c t p k r rfl, w_at]

/-- An entry of the output lies in point t's block iff each coordinate is in the block's range. -/
theorem mem_blk (t : Fin cfg1.N) (i : S50000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v17).slice (win1_2.rect t)).set ↔ _
  rw [View.set_slice_whole, Rect.mem_set_unit]
  exact Iff.rfl

/-- Row r of the output lies in the block of point r / 10000: the five blocks tile the rows. -/
theorem cover (i : S50000x32.Idx) : ∃ t : Fin cfg1.N, (cfg1.win 2).flush t = true ∧ i ∈ ((cfg1.win 2).blk t).view.set := by
  have hi0 : (i 0).val < 50000 := (i 0).isLt
  have hi1 : (i 1).val < 32 := (i 1).isLt
  have hN : grid1.N = 5 := N_1
  have hlt : (i 0).val / 10000 < grid1.N := by omega
  obtain ⟨-, -, -, -, e20, e21⟩ := idx_facts ⟨(i 0).val / 10000, hlt⟩
  refine ⟨⟨(i 0).val / 10000, hlt⟩, flush1_2 _, ?_⟩
  rw [mem_blk]
  intro a
  match a with
  | ⟨0, _⟩ =>
    show win1_2.index ⟨(i 0).val / 10000, hlt⟩ (0 : Fin 2) * 10000 ≤ (i 0).val ∧ (i 0).val < win1_2.index ⟨(i 0).val / 10000, hlt⟩ (0 : Fin 2) * 10000 + 10000
    rw [e20]; show (i 0).val / 10000 * 10000 ≤ (i 0).val ∧ (i 0).val < (i 0).val / 10000 * 10000 + 10000; omega
  | ⟨1, _⟩ =>
    show win1_2.index ⟨(i 0).val / 10000, hlt⟩ (1 : Fin 2) * 32 ≤ (i 1).val ∧ (i 1).val < win1_2.index ⟨(i 0).val / 10000, hlt⟩ (1 : Fin 2) * 32 + 32
    rw [e21]; omega

/-- THE OUTPUT ARRAY after the launch: the product of the whole edge table with the matrix. -/
theorem output (c : Dev nD) : (dat1 V c).arrAt 2 cfg1.N = product (V c main_v16) (V c main_v1) :=
  (dat1 V c).arrAt_eq_of_cover 2 _ (fun t _ => flushed_eq V c t) cover

end Cert.KernelIdeal.EdgeProduct

end
-- ==== Proof.Blend.lean ====
/-
  The third launch: for every block of 10000 node rows, with s the scattered table of 33 columns (32 message columns
  and one count column), x2 the second projection and x0 the residual input, the body forms
  ½·(count · x2 + message) + ½·x0 and sends it through a 32×32 matrix plus a bias row. Read as a whole array the
  output is that map of the whole arrays: a block's row r of grid point t is row 10000·t + r, the count is column 32
  and the message columns 0..31 of the same row of s, the matrix and the bias row are whole at every point, and the
  ten blocks tile the 100000 rows.
-/
import proofs.«102758_j63153199120592_2_alg».proof.Proof.Gen.KernelIdeal.Frame
import proofs.«102758_j63153199120592_2_alg».proof.Proof.LibPlainDot
import proofs.«102758_j63153199120592_2_alg».proof.Proof.RowMaps
import Idealize.ShloMosaic.Lib.Pipeline.Value
import Idealize.ShloMosaic.Lib.ValueLayout
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Blend

open Cert.KernelIdeal Cert.KernelIdeal.Gen Cert.RowMaps

theorem hz : (![0, 0] : Fin 2 → Nat) = fun _ => 0 := funext fun a => by fin_cases a <;> rfl

/-- A column [a,1] spread over [a,b], read at (p, k): the column's entry of row p. -/
theorem column_spread {a b : ℕ} (v : (⟨2, ![a, 1]⟩ : Shape).Idx → EReal) (h : (⟨2, ![a, 1]⟩ : Shape).Broadcasts ⟨2, ![a, b]⟩)
    (p : Fin a) (k : Fin b) (ha : a ≠ 1) :
    broadcastTo ⟨2, ![a, b]⟩ v h (ix2 p k) = v (ix2 p (0 : Fin 1)) := by
  refine broadcastTo_apply v h (ix2 p k) (ix2 p (0 : Fin 1)) fun ax => ?_
  match ax with
  | ⟨0, _⟩ => show p.val = if a = 1 then 0 else p.val; rw [if_neg ha]
  | ⟨1, _⟩ => rfl

/-- A block's body value at entry (p, q). -/
theorem pay_at (v0 : Vec Ideal S10000x1 .f32) (v2 v4 v11 : Vec Ideal S10000x32 .f32) (v15 : Vec Ideal S32x32 .f32)
    (v17 : Vec Ideal S1x32 .f32) (p : Fin 10000) (q : Fin 32) :
    k2_pay1 (F := Ideal) v0 v2 v4 v11 v15 v17 (ix2 p q)
      = (∑ k : Fin 32, (Ideal.ofBits .f32 0x3F000000#32 * (v0 (ix2 p (0 : Fin 1)) * v4 (ix2 p k) + v2 (ix2 p k))
            + Ideal.ofBits .f32 0x3F000000#32 * v11 (ix2 p k)) * v15 (ix2 k q))
        + v17 (ix2 (0 : Fin 1) q) := by
  unfold k2_pay1
  rw [addf_apply, shapeCast_self, shapeCast_self, shapeCast_self, shapeCast_self, broadcastTo_1b_ab_apply]
  refine congrArg (· + v17 (ix2 (0 : Fin 1) q)) ?_
  refine (Cert.LibPlainDot.matmul_zero_at dot_S10000x32_S32x32_S10000x32_1_0_0_1_n_n rfl rfl rfl rfl rfl rfl rfl rfl none _ v15 p q).trans ?_
  refine Finset.sum_congr rfl fun k _ => congrArg (· * v15 (ix2 k q)) ?_
  rw [addf_apply, mulf_apply, mulf_apply, addf_apply, mulf_apply, broadcast_apply,
    column_spread v0 broadcasts_S10000x1_S10000x32 p k (by decide)]
  rfl

/-- The printed index maps over the grid. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem N_2 : grid2.N = 10 := by decide

variable (V : (c : Dev nD) → (b : Ref sig .tc) → Buf (Elt Ideal) ((c : Thread nD τ).loc b))

/-- Row p of the second projection's block at point t is row 10000·t + p. -/
theorem x2_at (c : Dev nD) (t : Fin cfg2.N) (p : Fin 10000) (k : Fin 32) (r : Fin 100000)
    (hr : r.val = t.val * 10000 + p.val) : iblk2 V c 0 t (ix2 p k) = V c main_v4_1 (ix2 r k) := by
  obtain ⟨e00, e01, -⟩ := idx_facts t
  show V c main_v4_1 (((cfg2.win 0).blk t).view.emb (ix2 p k)) = V c main_v4_1 (ix2 r k)
  refine congrArg (V c main_v4_1) ?_
  funext a; apply Fin.ext
  match a with
  | ⟨0, _⟩ => show win2_0.index t (0 : Fin 2) * 10000 + 1 * p.val = r.val; omega
  | ⟨1, _⟩ => show win2_0.index t (1 : Fin 2) * 32 + 1 * k.val = k.val; omega

/-- The count the body loads for row p is column 32 of row 10000·t + p of the scattered table. -/
theorem count_at (c : Dev nD) (t : Fin cfg2.N) (p : Fin 10000) (u : Fin 1) (r : Fin 100000)
    (hr : r.val = t.val * 10000 + p.val) :
    View.ld (iblk2 V c 1 t) r2_0 (ix2 p u) = V c main_v29 (ix2 r (32 : Fin 33)) := by
  obtain ⟨-, -, e10, e11, -⟩ := idx_facts t
  show V c main_v29 (((cfg2.win 1).blk t).view.emb (r2_0.idx (ix2 p u))) = V c main_v29 (ix2 r (32 : Fin 33))
  refine congrArg (V c main_v29) ?_
  funext a; apply Fin.ext
  match a with
  | ⟨0, _⟩ => show win2_1.index t (0 : Fin 2) * 10000 + 1 * (0 + 1 * p.val) = r.val; omega
  | ⟨1, _⟩ => show win2_1.index t (1 : Fin 2) * 33 + 1 * (32 + 1 * u.val) = 32; omega

/-- The message the body loads at (p, k) is column k of row 10000·t + p of the scattered table. -/
theorem message_at (c : Dev nD) (t : Fin cfg2.N) (p : Fin 10000) (k : Fin 32) (r : Fin 100000)
    (hr : r.val = t.val * 10000 + p.val) :
    View.ld (iblk2 V c 1 t) r2_1 (ix2 p k) = V c main_v29 (ix2 r (⟨k.val, by omega⟩ : Fin 33)) := by
  obtain ⟨-, -, e10, e11, -⟩ := idx_facts t
  show V c main_v29 (((cfg2.win 1).blk t).view.emb (r2_1.idx (ix2 p k))) = V c main_v29 (ix2 r (⟨k.val, by omega⟩ : Fin 33))
  refine congrArg (V c main_v29) ?_
  funext a; apply Fin.ext
  match a with
  | ⟨0, _⟩ => show win2_1.index t (0 : Fin 2) * 10000 + 1 * (0 + 1 * p.val) = r.val; omega
  | ⟨1, _⟩ => show win2_1.index t (1 : Fin 2) * 33 + 1 * (0 + 1 * k.val) = k.val; omega

/-- Row p of the residual input's block at point t is row 10000·t + p. -/
theorem x0_at (c : Dev nD) (t : Fin cfg2.N) (p : Fin 10000) (k : Fin 32) (r : Fin 100000)
    (hr : r.val = t.val * 10000 + p.val) : iblk2 V c 2 t (ix2 p k) = V c main_arg1 (ix2 r k) := by
  obtain ⟨-, -, -, -, e20, e21, -⟩ := idx_facts t
  show V c main_arg1 (((cfg2.win 2).blk t).view.emb (ix2 p k)) = V c main_arg1 (ix2 r k)
  refine congrArg (V c main_arg1) ?_
  funext a; apply Fin.ext
  match a with
  | ⟨0, _⟩ => show win2_2.index t (0 : Fin 2) * 10000 + 1 * p.val = r.val; omega
  | ⟨1, _⟩ => show win2_2.index t (1 : Fin 2) * 32 + 1 * k.val = k.val; omega

/-- The matrix and the bias row are staged whole at every point. -/
theorem w_at (c : Dev nD) (t : Fin cfg2.N) (k q : Fin 32) : iblk2 V c 3 t (ix2 k q) = V c main_arg7 (ix2 k q) := by
  obtain ⟨-, -, -, -, -, -, e30, e31, -⟩ := idx_facts t
  show V c main_arg7 (((cfg2.win 3).blk t).view.emb (ix2 k q)) = V c main_arg7 (ix2 k q)
  refine congrArg (V c main_arg7) ?_
  funext a; apply Fin.ext
  match a with
  | ⟨0, _⟩ => show win2_3.index t (0 : Fin 2) * 32 + 1 * k.val = k.val; omega
  | ⟨1, _⟩ => show win2_3.index t (1 : Fin 2) * 32 + 1 * q.val = q.val; omega

theorem b_at (c : Dev nD) (t : Fin cfg2.N) (u : Fin 1) (q : Fin 32) : iblk2 V c 4 t (ix2 u q) = V c main_v30 (ix2 u q) := by
  obtain ⟨-, -, -, -, -, -, -, -, e40, e41, -⟩ := idx_facts t
  show V c main_v30 (((cfg2.win 4).blk t).view.emb (ix2 u q)) = V c main_v30 (ix2 u q)
  refine congrArg (V c main_v30) ?_
  funext a; apply Fin.ext
  match a with
  | ⟨0, _⟩ => show win2_4.index t (0 : Fin 2) * 1 + 1 * u.val = u.val; omega
  | ⟨1, _⟩ => show win2_4.index t (1 : Fin 2) * 32 + 1 * q.val = q.val; omega

/-- What point t writes back is block t of the blend of the entry arrays. -/
theorem flushed_eq (c : Dev nD) (t : Fin cfg2.N) :
    (dat2 V c).flushed 5 t = ((cfg2.win 5).blk t).view.read (Elt Ideal)
      (blend (V c main_v4_1) (V c main_v29) (V c main_arg1) (V c main_arg7) (V c main_v30)) := by
  show (cfg2.win 5).cut (grid2.coords t) ((dat2 V c).after 5 t) = _
  rw [after2_5]
  unfold out2_5
  rw [View.canon_unit_zero hz]
  simp only [View.ld_unit_zero (S := S10000x32) hz, View.ld_unit_zero (S := S32x32) hz, View.ld_unit_zero (S := S1x32) hz]
  obtain ⟨-, -, -, -, -, -, -, -, -, -, e50, e51⟩ := idx_facts t
  funext j
  obtain ⟨p, q, rfl⟩ : ∃ (p : Fin 10000) (q : Fin 32), j = ix2 p q := ⟨j 0, j 1, eq_ix2 j⟩
  have hN : grid2.N = 10 := N_2
  have ht : t.val < 10 := hN ▸ t.isLt
  let r : Fin 100000 := ⟨t.val * 10000 + p.val, by have := p.isLt; omega⟩
  have hemb : ((cfg2.win 5).blk t).view.emb (ix2 p q) = ix2 r q := by
    funext a; apply Fin.ext
    match a with
    | ⟨0, _⟩ => show win2_5.index t (0 : Fin 2) * 10000 + 1 * p.val = t.val * 10000 + p.val; omega
    | ⟨1, _⟩ => show win2_5.index t (1 : Fin 2) * 32 + 1 * q.val = q.val; omega
  show k2_pay1 (F := Ideal) (View.ld (iblk2 V c 1 t) r2_0) (View.ld (iblk2 V c 1 t) r2_1) (iblk2 V c 0 t) (iblk2 V c 2 t)
      (iblk2 V c 3 t) (iblk2 V c 4 t) (ix2 p q)
    = blend (V c main_v4_1) (V c main_v29) (V c main_arg1) (V c main_arg7) (V c main_v30) (((cfg2.win 5).blk t).view.emb (ix2 p q))
  rw [pay_at, hemb, b_at, count_at V c t p 0 r rfl]
  show _ = (∑ k : Fin 32, mixAt (V c main_v4_1) (V c main_v29) (V c main_arg1) r k * V c main_arg7 (ix2 k q))
    + V c main_v30 (ix2 (0 : Fin 1) q)
  refine congrArg (· + V c main_v30 (ix2 (0 : Fin 1) q)) ?_
  refine Finset.sum_congr rfl fun k _ => ?_
  rw [x2_at V c t p k r rfl, message_at V c t p k r rfl, x0_at V c t p k r rfl, w_at]
  rfl

/-- An entry of the output lies in point t's block iff each coordinate is in the block's range. -/
theorem mem_blk (t : Fin cfg2.N) (i : S100000x32.Idx) :
    i ∈ ((cfg2.win 5).blk t).view.set ↔ ∀ a : Fin 2, win2_5.index t a * S10000x32.size a ≤ (i a).val ∧ (i a).val < win2_5.index t a * S10000x32.size a + S10000x32.size a := by
  show i ∈ ((View.whole main_v31).slice (win2_5.rect t)).set ↔ _
  rw [View.set_slice_whole, Rect.mem_set_unit]
  exact Iff.rfl

/-- Row r of the output lies in the block of point r / 10000: the ten blocks tile the rows. -/
theorem cover (i : S100000x32.Idx) : ∃ t : Fin cfg2.N, (cfg2.win 5).flush t = true ∧ i ∈ ((cfg2.win 5).blk t).view.set := by
  have hi0 : (i 0).val < 100000 := (i 0).isLt
  have hi1 : (i 1).val < 32 := (i 1).isLt
  have hN : grid2.N = 10 := N_2
  have hlt : (i 0).val / 10000 < grid2.N := by omega
  obtain ⟨-, -, -, -, -, -, -, -, -, -, e50, e51⟩ := idx_facts ⟨(i 0).val / 10000, hlt⟩
  refine ⟨⟨(i 0).val / 10000, hlt⟩, flush2_5 _, ?_⟩
  rw [mem_blk]
  intro a
  match a with
  | ⟨0, _⟩ =>
    show win2_5.index ⟨(i 0).val / 10000, hlt⟩ (0 : Fin 2) * 10000 ≤ (i 0).val ∧ (i 0).val < win2_5.index ⟨(i 0).val / 10000, hlt⟩ (0 : Fin 2) * 10000 + 10000
    rw [e50]; show (i 0).val / 10000 * 10000 ≤ (i 0).val ∧ (i 0).val < (i 0).val / 10000 * 10000 + 10000; omega
  | ⟨1, _⟩ =>
    show win2_5.index ⟨(i 0).val / 10000, hlt⟩ (1 : Fin 2) * 32 ≤ (i 1).val ∧ (i 1).val < win2_5.index ⟨(i 0).val / 10000, hlt⟩ (1 : Fin 2) * 32 + 32
    rw [e51]; omega

/-- THE OUTPUT ARRAY after the launch: the blend of the whole arrays. -/
theorem output (c : Dev nD) : (dat2 V c).arrAt 5 cfg2.N
    = blend (V c main_v4_1) (V c main_v29) (V c main_arg1) (V c main_arg7) (V c main_v30) :=
  (dat2 V c).arrAt_eq_of_cover 5 _ (fun t _ => flushed_eq V c t) cover

end Cert.KernelIdeal.Blend

end
-- ==== Proof.Launches.lean ====
/-
  The three launches as steps between boundaries: each output array at the boundary after a launch is the launch's
  row map of the arrays at the boundary before it, and a buffer the launch does not own is left as it was.
-/
import proofs.«102758_j63153199120592_2_alg».proof.Proof.Gen.KernelIdeal.Frame
import proofs.«102758_j63153199120592_2_alg».proof.Proof.NodeMaps
import proofs.«102758_j63153199120592_2_alg».proof.Proof.EdgeProduct
import proofs.«102758_j63153199120592_2_alg».proof.Proof.Blend
import proofs.«102758_j63153199120592_2_alg».proof.Proof.RowMaps

set_option maxRecDepth 16384

noncomputable section

open Idealize.ShloMosaic Idealize.ShloMosaic.TcCoe Idealize.SL.Sem

namespace Cert.KernelIdeal.Launches

open Cert.KernelIdeal Cert.KernelIdeal.Gen Cert.RowMaps

variable (m : (ℓ : Loc nD τ sig) → Buf (Elt Ideal) ℓ) (ρ : Dev nD → PrngReg)

/-- After the first launch the first output is the affine map through the first matrix and bias row. -/
theorem w2_v4_0 (c : Dev nD) : W2 m ρ c (Proc.devRef .tc main_v4_0)
    = affine (W1 m ρ c (Proc.devRef .tc main_arg0)) (W1 m ρ c (Proc.devRef .tc main_arg3)) (W1 m ρ c (Proc.devRef .tc main_v2)) :=
  (W2_arr m ρ c 5).trans (Cert.KernelIdeal.NodeMaps.first_output (V1 m ρ) c)

/-- … and the second output the affine map through the upper half matrix and the second bias row. -/
theorem w2_v4_1 (c : Dev nD) : W2 m ρ c (Proc.devRef .tc main_v4_1)
    = affine (W1 m ρ c (Proc.devRef .tc main_arg0)) (W1 m ρ c (Proc.devRef .tc main_v0)) (W1 m ρ c (Proc.devRef .tc main_v3)) :=
  (W2_arr m ρ c 6).trans (Cert.KernelIdeal.NodeMaps.second_output (V1 m ρ) c)
theorem w2_v1 (c : Dev nD) : W2 m ρ c (Proc.devRef .tc main_v1) = W1 m ρ c (Proc.devRef .tc main_v1) :=
  W2_of_ne m ρ c main_v1 (by decide)
theorem w2_arg1 (c : Dev nD) : W2 m ρ c (Proc.devRef .tc main_arg1) = W1 m ρ c (Proc.devRef .tc main_arg1) :=
  W2_of_ne m ρ c main_arg1 (by decide)
theorem w2_arg2 (c : Dev nD) : W2 m ρ c (Proc.devRef .tc main_arg2) = W1 m ρ c (Proc.devRef .tc main_arg2) :=
  W2_of_ne m ρ c main_arg2 (by decide)
theorem w2_arg7 (c : Dev nD) : W2 m ρ c (Proc.devRef .tc main_arg7) = W1 m ρ c (Proc.devRef .tc main_arg7) :=
  W2_of_ne m ρ c main_arg7 (by decide)
theorem w2_arg8 (c : Dev nD) : W2 m ρ c (Proc.devRef .tc main_arg8) = W1 m ρ c (Proc.devRef .tc main_arg8) :=
  W2_of_ne m ρ c main_arg8 (by decide)
theorem w2_arg9 (c : Dev nD) : W2 m ρ c (Proc.devRef .tc main_arg9) = W1 m ρ c (Proc.devRef .tc main_arg9) :=
  W2_of_ne m ρ c main_arg9 (by decide)
theorem w2_arg10 (c : Dev nD) : W2 m ρ c (Proc.devRef .tc main_arg10) = W1 m ρ c (Proc.devRef .tc main_arg10) :=
  W2_of_ne m ρ c main_arg10 (by decide)

/-- After the second launch its output is the product of the edge sums with the lower half matrix. -/
theorem w4_v17 (c : Dev nD) : W4 m ρ c (Proc.devRef .tc main_v17)
    = product (W3 m ρ c (Proc.devRef .tc main_v16)) (W3 m ρ c (Proc.devRef .tc main_v1)) :=
  (W4_arr m ρ c 2).trans (Cert.KernelIdeal.EdgeProduct.output (V3 m ρ) c)
theorem w4_v4_1 (c : Dev nD) : W4 m ρ c (Proc.devRef .tc main_v4_1) = W3 m ρ c (Proc.devRef .tc main_v4_1) :=
  W4_of_ne m ρ c main_v4_1 (by decide)
theorem w4_arg1 (c : Dev nD) : W4 m ρ c (Proc.devRef .tc main_arg1) = W3 m ρ c (Proc.devRef .tc main_arg1) :=
  W4_of_ne m ρ c main_arg1 (by decide)
theorem w4_arg7 (c : Dev nD) : W4 m ρ c (Proc.devRef .tc main_arg7) = W3 m ρ c (Proc.devRef .tc main_arg7) :=
  W4_of_ne m ρ c main_arg7 (by decide)
theorem w4_arg8 (c : Dev nD) : W4 m ρ c (Proc.devRef .tc main_arg8) = W3 m ρ c (Proc.devRef .tc main_arg8) :=
  W4_of_ne m ρ c main_arg8 (by decide)
theorem w4_arg9 (c : Dev nD) : W4 m ρ c (Proc.devRef .tc main_arg9) = W3 m ρ c (Proc.devRef .tc main_arg9) :=
  W4_of_ne m ρ c main_arg9 (by decide)
theorem w4_arg10 (c : Dev nD) : W4 m ρ c (Proc.devRef .tc main_arg10) = W3 m ρ c (Proc.devRef .tc main_arg10) :=
  W4_of_ne m ρ c main_arg10 (by decide)

/-- After the third launch the result is the blend of the arrays at its entry. -/
theorem w6_v31 (c : Dev nD) : W6 m ρ c (Proc.devRef .tc main_v31)
    = blend (W5 m ρ c (Proc.devRef .tc main_v4_1)) (W5 m ρ c (Proc.devRef .tc main_v29)) (W5 m ρ c (Proc.devRef .tc main_arg1))
        (W5 m ρ c (Proc.devRef .tc main_arg7)) (W5 m ρ c (Proc.devRef .tc main_v30)) :=
  (W6_arr m ρ c 5).trans (Cert.KernelIdeal.Blend.output (V5 m ρ) c)

end Cert.KernelIdeal.Launches

end
-- ==== Proof.HostStages.lean ====
/-
  The host stretches between the launches, each as one function of the arrays it reads.

  * `biasRow b` — a vector of 32 entries laid out as a row [1, 32];
  * `upper w`, `lower w` — rows 0..31 and rows 32..63 of a [64, 32] matrix;
  * `column x` — a vector of words as an index column; `wrapNodes x`, `wrapEdges x` — the same with every negative
    word first moved up by the table's length (100000 node rows, 50000 edge rows), as array indexing lowers;
  * `edgeSums x1 a vtx edg` — for every incidence the row of `x1` its vertex word names, scaled by the incidence's
    weight, summed into the edge row its edge word names, from a zero table;
  * `nodeSums y vtx edg` — for every incidence the row of `y` its edge word names with a 1 appended, summed into
    the node row its vertex word names, from a zero table of 33 columns: 32 message columns and a count.
-/
import proofs.«102758_j63153199120592_2_alg».proof.Proof.Gen.KernelIdeal

noncomputable section

namespace Cert.KernelIdeal.HostStages

open Cert.KernelIdeal Cert.KernelIdeal.Facts₀ Cert.KernelIdeal.Facts Idealize.ShloMosaic

variable {F : FTy → Type} [FloatOps F]

/-- A vector of 32 entries as a row. -/
def biasRow (b : (⟨S32, .f32⟩ : BufTy).Contents (Elt F)) : (⟨S1x32, .f32⟩ : BufTy).Contents (Elt F) :=
  shapeCast S1x32 b shapeCasts_S32_S1x32

/-- Rows 0..31 of a [64, 32] matrix. -/
def upper (w : (⟨S64x32, .f32⟩ : BufTy).Contents (Elt F)) : (⟨S32x32, .f32⟩ : BufTy).Contents (Elt F) :=
  extractStridedSlice S32x32 ![0, 0] w slices_S64x32_S32x32_0_0

/-- Rows 32..63 of a [64, 32] matrix. -/
def lower (w : (⟨S64x32, .f32⟩ : BufTy).Contents (Elt F)) : (⟨S32x32, .f32⟩ : BufTy).Contents (Elt F) :=
  extractStridedSlice S32x32 ![32, 0] w slices_S64x32_S32x32_32_0

/-- A vector of words as an index column. -/
def column (x : (⟨S3200000, .i32⟩ : BufTy).Contents (Elt F)) : (⟨S3200000x1, .i32⟩ : BufTy).Contents (Elt F) :=
  broadcastInDim S3200000x1 ![0] bcast_S3200000_S3200000x1_0 x

/-- The index column for rows of the node table: a negative word is moved up by 100000 first. -/
def wrapNodes (x : (⟨S3200000, .i32⟩ : BufTy).Contents (Elt F)) : (⟨S3200000x1, .i32⟩ : BufTy).Contents (Elt F) :=
  broadcastInDim S3200000x1 ![0] bcast_S3200000_S3200000x1_0
    (select (cmpi .slt x (broadcastInDim S3200000 ![] bcast_S_S3200000 (constantI S_ 32 0#32)))
      (addi x (broadcastInDim S3200000 ![] bcast_S_S3200000 (constantI S_ 32 100000#32))) x)

/-- The index column for rows of the edge table: a negative word is moved up by 50000 first. -/
def wrapEdges (x : (⟨S3200000, .i32⟩ : BufTy).Contents (Elt F)) : (⟨S3200000x1, .i32⟩ : BufTy).Contents (Elt F) :=
  broadcastInDim S3200000x1 ![0] bcast_S3200000_S3200000x1_0
    (select (cmpi .slt x (broadcastInDim S3200000 ![] bcast_S_S3200000 (constantI S_ 32 0#32)))
      (addi x (broadcastInDim S3200000 ![] bcast_S_S3200000 (constantI S_ 32 50000#32))) x)

/-- Weighted rows of `x1` gathered by vertex and summed by edge. -/
def edgeSums (x1 : (⟨S100000x32, .f32⟩ : BufTy).Contents (Elt F)) (a : (⟨S3200000x1, .f32⟩ : BufTy).Contents (Elt F))
    (vtx edg : (⟨S3200000, .i32⟩ : BufTy).Contents (Elt F)) : (⟨S50000x32, .f32⟩ : BufTy).Contents (Elt F) :=
  Host.scatterAdd scatter_S50000x32_S3200000x1_S3200000x32_1_0_0_1
    (broadcastInDim S50000x32 ![] bcast_S_S50000x32 (constant S_ .f32 0x00000000#32))
    (column edg)
    (mulf (Host.gather gather_S100000x32_S3200000x1_S3200000x32_1_0_n_n_0_1_132 x1 (wrapNodes vtx))
      (broadcastInDim S3200000x32 ![0, 1] bcast_S3200000x1_S3200000x32_0_1 a))

/-- The incidences' rows of `y`, a 1 appended to each, before they are summed by vertex. -/
def messages (y : (⟨S50000x32, .f32⟩ : BufTy).Contents (Elt F)) (edg : (⟨S3200000, .i32⟩ : BufTy).Contents (Elt F)) :
    (⟨S3200000x33, .f32⟩ : BufTy).Contents (Elt F) :=
  concatenate S3200000x33 1
    [⟨S3200000x32, Host.gather gather_S50000x32_S3200000x1_S3200000x32_1_0_n_n_0_1_132 y (wrapEdges edg)⟩,
     ⟨S3200000x1, broadcastInDim S3200000x1 ![] bcast_S_S3200000x1 (constant S_ .f32 0x3F800000#32)⟩]
    concatenates_S3200000x32_S3200000x1_S3200000x33_d1

/-- Rows of `y` gathered by edge, a 1 appended, summed by vertex. -/
def nodeSums (y : (⟨S50000x32, .f32⟩ : BufTy).Contents (Elt F)) (vtx edg : (⟨S3200000, .i32⟩ : BufTy).Contents (Elt F)) :
    (⟨S100000x33, .f32⟩ : BufTy).Contents (Elt F) :=
  Host.scatterAdd scatter_S100000x33_S3200000x1_S3200000x33_1_0_0_1
    (broadcastInDim S100000x33 ![] bcast_S_S100000x33 (constant S_ .f32 0x00000000#32))
    (column vtx)
    (messages y edg)

end Cert.KernelIdeal.HostStages

end
-- ==== Proof.BeforeFirst.lean ====
/-
  Before the first launch: the two halves of the [64, 32] matrix are cut out, two bias vectors are laid out as rows,
  and nothing else is written.
-/
import proofs.«102758_j63153199120592_2_alg».proof.Proof.Gen.KernelIdeal.Frame
import proofs.«102758_j63153199120592_2_alg».proof.Proof.HostStages
import proofs.«102758_j63153199120592_2_alg».proof.Proof.RowMaps
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo
namespace Cert.KernelIdeal.BeforeFirst

open Cert.KernelIdeal Cert.KernelIdeal.Gen Cert.KernelIdeal.HostStages Cert.RowMaps

variable (m : (ℓ : Loc nD τ sig) → Buf (Elt Ideal) ℓ) (ρ : Dev nD → PrngReg)
theorem w1_arg0 (c : Dev nD) : W1 m ρ c (Proc.devRef .tc main_arg0) = m ((c : Thread nD τ).loc main_arg0) := by
  show StableHlo.after hostOps0 (W0 m ρ c) (Proc.devRef .tc main_arg0) = _
  after_results
  all_goals rfl
theorem w1_arg1 (c : Dev nD) : W1 m ρ c (Proc.devRef .tc main_arg1) = m ((c : Thread nD τ).loc main_arg1) := by
  show StableHlo.after hostOps0 (W0 m ρ c) (Proc.devRef .tc main_arg1) = _
  after_results
  all_goals rfl
theorem w1_arg2 (c : Dev nD) : W1 m ρ c (Proc.devRef .tc main_arg2) = m ((c : Thread nD τ).loc main_arg2) := by
  show StableHlo.after hostOps0 (W0 m ρ c) (Proc.devRef .tc main_arg2) = _
  after_results
  all_goals rfl
theorem w1_arg3 (c : Dev nD) : W1 m ρ c (Proc.devRef .tc main_arg3) = m ((c : Thread nD τ).loc main_arg3) := by
  show StableHlo.after hostOps0 (W0 m ρ c) (Proc.devRef .tc main_arg3) = _
  after_results
  all_goals rfl
theorem w1_arg7 (c : Dev nD) : W1 m ρ c (Proc.devRef .tc main_arg7) = m ((c : Thread nD τ).loc main_arg7) := by
  show StableHlo.after hostOps0 (W0 m ρ c) (Proc.devRef .tc main_arg7) = _
  after_results
  all_goals rfl
theorem w1_arg8 (c : Dev nD) : W1 m ρ c (Proc.devRef .tc main_arg8) = m ((c : Thread nD τ).loc main_arg8) := by
  show StableHlo.after hostOps0 (W0 m ρ c) (Proc.devRef .tc main_arg8) = _
  after_results
  all_goals rfl
theorem w1_arg9 (c : Dev nD) : W1 m ρ c (Proc.devRef .tc main_arg9) = m ((c : Thread nD τ).loc main_arg9) := by
  show StableHlo.after hostOps0 (W0 m ρ c) (Proc.devRef .tc main_arg9) = _
  after_results
  all_goals rfl
theorem w1_arg10 (c : Dev nD) : W1 m ρ c (Proc.devRef .tc main_arg10) = m ((c : Thread nD τ).loc main_arg10) := by
  show StableHlo.after hostOps0 (W0 m ρ c) (Proc.devRef .tc main_arg10) = _
  after_results
  all_goals rfl
theorem w1_v0 (c : Dev nD) : W1 m ρ c (Proc.devRef .tc main_v0) = upper (m ((c : Thread nD τ).loc main_arg5)) := by
  show StableHlo.after hostOps0 (W0 m ρ c) (Proc.devRef .tc main_v0) = _
  after_results
  all_goals rfl
theorem w1_v1 (c : Dev nD) : W1 m ρ c (Proc.devRef .tc main_v1) = lower (m ((c : Thread nD τ).loc main_arg5)) := by
  show StableHlo.after hostOps0 (W0 m ρ c) (Proc.devRef .tc main_v1) = _
  after_results
  all_goals rfl
theorem w1_v2 (c : Dev nD) : W1 m ρ c (Proc.devRef .tc main_v2) = biasRow (m ((c : Thread nD τ).loc main_arg4)) := by
  show StableHlo.after hostOps0 (W0 m ρ c) (Proc.devRef .tc main_v2) = _
  after_results
  all_goals rfl
theorem w1_v3 (c : Dev nD) : W1 m ρ c (Proc.devRef .tc main_v3) = biasRow (m ((c : Thread nD τ).loc main_arg6)) := by
  show StableHlo.after hostOps0 (W0 m ρ c) (Proc.devRef .tc main_v3) = _
  after_results
  all_goals rfl

end Cert.KernelIdeal.BeforeFirst

end
-- ==== Proof.BetweenFirstSecond.lean ====
/-
  Between the first and the second launch: the weighted rows of the first projection are gathered by vertex and summed
  by edge; the second projection, the lower half of the [64, 32] matrix and the arguments are left as they were.
-/
import proofs.«102758_j63153199120592_2_alg».proof.Proof.Gen.KernelIdeal.Frame
import proofs.«102758_j63153199120592_2_alg».proof.Proof.HostStages
import proofs.«102758_j63153199120592_2_alg».proof.Proof.RowMaps
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo
namespace Cert.KernelIdeal.BetweenFirstSecond

open Cert.KernelIdeal Cert.KernelIdeal.Gen Cert.KernelIdeal.HostStages Cert.RowMaps

variable (m : (ℓ : Loc nD τ sig) → Buf (Elt Ideal) ℓ) (ρ : Dev nD → PrngReg)
theorem w3_v16 (c : Dev nD) : W3 m ρ c (Proc.devRef .tc main_v16)
    = edgeSums (W2 m ρ c (Proc.devRef .tc main_v4_0)) (W2 m ρ c (Proc.devRef .tc main_arg2))
        (W2 m ρ c (Proc.devRef .tc main_arg9)) (W2 m ρ c (Proc.devRef .tc main_arg10)) := by
  show StableHlo.after hostOps1 (W2 m ρ c) (Proc.devRef .tc main_v16) = _
  after_results
  all_goals rfl
theorem w3_v1 (c : Dev nD) : W3 m ρ c (Proc.devRef .tc main_v1) = W2 m ρ c (Proc.devRef .tc main_v1) := by
  show StableHlo.after hostOps1 (W2 m ρ c) (Proc.devRef .tc main_v1) = _
  after_results
  all_goals rfl
theorem w3_v4_1 (c : Dev nD) : W3 m ρ c (Proc.devRef .tc main_v4_1) = W2 m ρ c (Proc.devRef .tc main_v4_1) := by
  show StableHlo.after hostOps1 (W2 m ρ c) (Proc.devRef .tc main_v4_1) = _
  after_results
  all_goals rfl
theorem w3_arg1 (c : Dev nD) : W3 m ρ c (Proc.devRef .tc main_arg1) = W2 m ρ c (Proc.devRef .tc main_arg1) := by
  show StableHlo.after hostOps1 (W2 m ρ c) (Proc.devRef .tc main_arg1) = _
  after_results
  all_goals rfl
theorem w3_arg7 (c : Dev nD) : W3 m ρ c (Proc.devRef .tc main_arg7) = W2 m ρ c (Proc.devRef .tc main_arg7) := by
  show StableHlo.after hostOps1 (W2 m ρ c) (Proc.devRef .tc main_arg7) = _
  after_results
  all_goals rfl
theorem w3_arg8 (c : Dev nD) : W3 m ρ c (Proc.devRef .tc main_arg8) = W2 m ρ c (Proc.devRef .tc main_arg8) := by
  show StableHlo.after hostOps1 (W2 m ρ c) (Proc.devRef .tc main_arg8) = _
  after_results
  all_goals rfl
theorem w3_arg9 (c : Dev nD) : W3 m ρ c (Proc.devRef .tc main_arg9) = W2 m ρ c (Proc.devRef .tc main_arg9) := by
  show StableHlo.after hostOps1 (W2 m ρ c) (Proc.devRef .tc main_arg9) = _
  after_results
  all_goals rfl
theorem w3_arg10 (c : Dev nD) : W3 m ρ c (Proc.devRef .tc main_arg10) = W2 m ρ c (Proc.devRef .tc main_arg10) := by
  show StableHlo.after hostOps1 (W2 m ρ c) (Proc.devRef .tc main_arg10) = _
  after_results
  all_goals rfl

end Cert.KernelIdeal.BetweenFirstSecond

end
-- ==== Proof.BetweenSecondThird.lean ====
/-
  Between the second and the third launch: the rows of the edge product are gathered by edge, a 1 appended, and summed
  by vertex; the last bias vector is laid out as a row; the second projection and the arguments are left as they were.
-/
import proofs.«102758_j63153199120592_2_alg».proof.Proof.Gen.KernelIdeal.Frame
import proofs.«102758_j63153199120592_2_alg».proof.Proof.HostStages
import proofs.«102758_j63153199120592_2_alg».proof.Proof.RowMaps
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo
namespace Cert.KernelIdeal.BetweenSecondThird

open Cert.KernelIdeal Cert.KernelIdeal.Gen Cert.KernelIdeal.HostStages Cert.RowMaps

variable (m : (ℓ : Loc nD τ sig) → Buf (Elt Ideal) ℓ) (ρ : Dev nD → PrngReg)
theorem w5_v29 (c : Dev nD) : W5 m ρ c (Proc.devRef .tc main_v29)
    = nodeSums (W4 m ρ c (Proc.devRef .tc main_v17)) (W4 m ρ c (Proc.devRef .tc main_arg9))
        (W4 m ρ c (Proc.devRef .tc main_arg10)) := by
  show StableHlo.after hostOps2 (W4 m ρ c) (Proc.devRef .tc main_v29) = _
  after_results
  all_goals rfl
theorem w5_v30 (c : Dev nD) : W5 m ρ c (Proc.devRef .tc main_v30) = biasRow (W4 m ρ c (Proc.devRef .tc main_arg8)) := by
  show StableHlo.after hostOps2 (W4 m ρ c) (Proc.devRef .tc main_v30) = _
  after_results
  all_goals rfl
theorem w5_v4_1 (c : Dev nD) : W5 m ρ c (Proc.devRef .tc main_v4_1) = W4 m ρ c (Proc.devRef .tc main_v4_1) := by
  show StableHlo.after hostOps2 (W4 m ρ c) (Proc.devRef .tc main_v4_1) = _
  after_results
  all_goals rfl
theorem w5_arg1 (c : Dev nD) : W5 m ρ c (Proc.devRef .tc main_arg1) = W4 m ρ c (Proc.devRef .tc main_arg1) := by
  show StableHlo.after hostOps2 (W4 m ρ c) (Proc.devRef .tc main_arg1) = _
  after_results
  all_goals rfl
theorem w5_arg7 (c : Dev nD) : W5 m ρ c (Proc.devRef .tc main_arg7) = W4 m ρ c (Proc.devRef .tc main_arg7) := by
  show StableHlo.after hostOps2 (W4 m ρ c) (Proc.devRef .tc main_arg7) = _
  after_results
  all_goals rfl

end Cert.KernelIdeal.BetweenSecondThird

end
-- ==== Proof.WholeRun.lean ====
/-
  The whole run of the three launches and the host stretches between them, with the result buffer named: every weakly
  fair execution terminates without a fault, the result buffer ends holding what the last boundary's contents give it,
  and the argument arrays end as launched.
-/
import proofs.«102758_j63153199120592_2_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments as launched. -/
theorem run : θ_run defs (onTc (τ := τ) (main (F := F))) ⟨m, fun _ => 0, ρ⟩ (fun r => ∀ c : Dev nD,
      r.2.mem ((c.tc : Thread nD τ).loc main_v31) = W6 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v31 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.WholeRun

end
-- ==== Proof.KernelWhole.lean ====
/-
  What the kernel's program leaves in its result buffer, as one function of the eleven argument arrays:
    the blend of  x2 = x·W2[0:32] + b2,  the node sums of (edge sums of (x·W1 + b1)) · W2[32:64],  x0,  W  and  b,
  read off the boundaries one step at a time, from the result back to the launch memory.
-/
import proofs.«102758_j63153199120592_2_alg».proof.Proof.Launches
import proofs.«102758_j63153199120592_2_alg».proof.Proof.BeforeFirst
import proofs.«102758_j63153199120592_2_alg».proof.Proof.BetweenFirstSecond
import proofs.«102758_j63153199120592_2_alg».proof.Proof.BetweenSecondThird
import proofs.«102758_j63153199120592_2_alg».proof.Proof.WholeRun

set_option maxRecDepth 16384

noncomputable section

open Idealize.ShloMosaic Idealize.ShloMosaic.TcCoe Idealize.SL.Sem

namespace Cert.KernelIdeal.Whole

open Cert.KernelIdeal Cert.KernelIdeal.Gen Cert.KernelIdeal.HostStages Cert.RowMaps
open Cert.KernelIdeal.Launches Cert.KernelIdeal.BeforeFirst Cert.KernelIdeal.BetweenFirstSecond Cert.KernelIdeal.BetweenSecondThird

/-- The kernel's result as a function of its arguments. -/
def kernelOut (x0 x1 : (⟨S100000x32, .f32⟩ : BufTy).Contents (Elt Ideal)) (x2 : (⟨S3200000x1, .f32⟩ : BufTy).Contents (Elt Ideal))
    (x3 : (⟨S32x32, .f32⟩ : BufTy).Contents (Elt Ideal)) (x4 : (⟨S32, .f32⟩ : BufTy).Contents (Elt Ideal))
    (x5 : (⟨S64x32, .f32⟩ : BufTy).Contents (Elt Ideal)) (x6 : (⟨S32, .f32⟩ : BufTy).Contents (Elt Ideal))
    (x7 : (⟨S32x32, .f32⟩ : BufTy).Contents (Elt Ideal)) (x8 : (⟨S32, .f32⟩ : BufTy).Contents (Elt Ideal))
    (x9 x10 : (⟨S3200000, .i32⟩ : BufTy).Contents (Elt Ideal)) : (⟨S100000x32, .f32⟩ : BufTy).Contents (Elt Ideal) :=
  blend (affine x0 (upper x5) (biasRow x6))
    (nodeSums (product (edgeSums (affine x0 x3 (biasRow x4)) x2 x9 x10) (lower x5)) x9 x10)
    x1 x7 (biasRow x8)

variable (m : (ℓ : Loc nD τ sig) → Buf (Elt Ideal) ℓ) (ρ : Dev nD → PrngReg)

/-- The last boundary's contents at the result buffer are that function of the launch memory's argument arrays. -/
theorem result_eq (c : Dev nD) : W6 m ρ c (Proc.devRef .tc main_v31)
    = kernelOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  rw [w6_v31, w5_v4_1, w5_v29, w5_arg1, w5_arg7, w5_v30, w4_v4_1, w4_v17, w4_arg9, w4_arg10, w4_arg1, w4_arg7, w4_arg8, w3_v4_1, w3_v16, w3_v1, w3_arg9, w3_arg10, w3_arg1, w3_arg7, w3_arg8, w2_v4_1, w2_v4_0, w2_v1, w2_arg2, w2_arg9, w2_arg10, w2_arg1, w2_arg7, w2_arg8, w1_arg0, w1_arg3, w1_v0, w1_v1, w1_v2, w1_v3, w1_arg2, w1_arg9, w1_arg10, w1_arg1, w1_arg7, w1_arg8]
  rfl

/-- THE KERNEL'S RUN: every weakly fair execution terminates without a fault, the result buffer ends at `kernelOut` of
    the argument arrays, and the arguments end as launched. -/
theorem run : θ_run defs (onTc (τ := τ) (main (F := Ideal))) ⟨m, fun _ => 0, ρ⟩ (fun r => ∀ c : Dev nD,
      r.2.mem ((c.tc : Thread nD τ).loc main_v31)
        = kernelOut (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_eq m ρ c), (h c).2⟩) (Cert.KernelIdeal.WholeRun.run (F := Ideal) m ρ)

end Cert.KernelIdeal.Whole

end
-- ==== Proof.LibGatherScatter.lean ====
/-
  Rows of a rank-2 array selected by a column of integer words, read at an index.

  `x[idx]` of an array `x : [N, C]` at an index column `idx : [E, 1]` is a gather whose result row `e` is
  the row of `x` that the word `idx[e, 0]` names, the word read as a signed integer and clamped into `[0, N − 1]`.
  The sum of the rows of `upd : [E, C]` into the rows of `x : [N, C]` that the same kind of column names is a
  scatter whose combining function is addition: row `p` of the result is row `p` of `x` plus the sum of the rows `e` of
  `upd` whose word, read signed and NOT clamped, is `p`; a row whose word falls outside `[0, N)` is dropped.
  The library states both through lists of axes and list lookups; here their dimension numbers are fixed, the
  lookups are carried out once, and each operation is stated as a plain equation between elements.
-/
import Idealize.ShloMosaic.PureOps.Ideal
import Idealize.ShloMosaic.Lib.ValueIdx
import Idealize.ShloMosaic.Lib.Pipeline.Value

noncomputable section

open scoped BigOperators

namespace Idealize.ShloMosaic.ValueIdx

open Idealize.ShloMosaic

/-! ## The row a word names -/

/-- The row a start-index word selects: read signed, negative to 0, clamped to the last row. -/
def clampRow (N : Nat) (hN : 0 < N) {w : Nat} (v : BitVec w) : Fin N := ⟨min v.toInt.toNat (N - 1), by omega⟩

/-- The row an update lands on: the word read signed, when it is a row; none when it falls outside. -/
def landRow (N : Nat) {w : Nat} (v : BitVec w) : Option (Fin N) :=
  if h : 0 ≤ v.toInt ∧ v.toInt < (N : Int) then some ⟨v.toInt.toNat, by omega⟩ else none

/-- An index that lands is not moved by the clamp. -/
theorem landRow_clampRow {N w : Nat} (hN : 0 < N) (v : BitVec w) (p : Fin N) (h : landRow N v = some p) :
    clampRow N hN v = p := by
  unfold landRow at h
  split at h
  · rename_i hv
    obtain rfl := Option.some.inj h
    refine Fin.ext ?_
    show min v.toInt.toNat (N - 1) = v.toInt.toNat
    omega
  · exact absurd h (by simp)

/-! ## Rows gathered by an index column -/

section GatherRows
variable {α : Type}

/-- The dimension numbers of `x[idx]` for an operand `[N, C]`, an index column `[E, 1]` and the result `[E, C]`: axis 0
    of the operand is indexed and collapsed, axis 1 is taken whole as the result's axis 1. Their conditions `wf` are
    decided on a program's literal shapes. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Result index `(e, q)` reads its one start-index component at `[e, 0]` of the index column. -/
theorem rowGather_siIdx {N E C : Nat}
    (wf : GatherDims.WF ⟨2, ![N, C]⟩ ⟨2, ![E, 1]⟩ ⟨2, ![E, C]⟩ [1] [0] [] [0] [] 1 ![1, C])
    (e : Fin E) (q : Fin C) (c : Fin (rowGatherDims N E C wf).startIndexMap.length) :
    (rowGatherDims N E C wf).siIdx (ix2 e q) c = ix2 e (0 : Fin 1) := by
  funext b; refine Fin.ext ?_
  match b with
  | ⟨0, _⟩ => rfl
  | ⟨1, _⟩ =>
    have := c.isLt
    show c.val = 0
    simp only [List.length_singleton] at this
    omega

/-- On the row axis the slice starts at the word of `[e, 0]`, read signed and clamped into `[0, N − 1]`. -/
theorem rowGather_start0 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (q : Fin C) :
    (rowGatherDims N E C wf).start (ix2 e q) idx 0 = min (idx (ix2 e (0 : Fin 1))).toInt.toNat (N - 1) := by
  unfold GatherDims.start
  rw [dif_pos (show (0 : Fin 2) ∈ (rowGatherDims N E C wf).startIndexMap from List.mem_singleton.mpr rfl)]
  rw [rowGather_siIdx]
  rfl

/-- On the column axis, which the start index does not name, the slice starts at 0. -/
theorem rowGather_start1 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (q : Fin C) :
    (rowGatherDims N E C wf).start (ix2 e q) idx 1 = 0 := by
  unfold GatherDims.start
  rw [dif_neg (show (1 : Fin 2) ∉ (rowGatherDims N E C wf).startIndexMap from
    (by decide : (1 : Fin 2) ∉ [(0 : Fin 2)]))]

/-- The row axis is collapsed: no offset on it. -/
theorem rowGather_offCoord0 {N E C : Nat}
    (wf : GatherDims.WF ⟨2, ![N, C]⟩ ⟨2, ![E, 1]⟩ ⟨2, ![E, C]⟩ [1] [0] [] [0] [] 1 ![1, C])
    (e : Fin E) (q : Fin C) :
    (rowGatherDims N E C wf).offCoord (ix2 e q) 0 = 0 :=
  GatherDims.offCoord_eq_zero _ _ _ (fun h => ((GatherDims.mem_sKept _ _).mp h).1 (List.mem_singleton.mpr rfl))

/-- The column axis is the one kept axis: its offset is the result's column. -/
theorem rowGather_offCoord1 {N E C : Nat}
    (wf : GatherDims.WF ⟨2, ![N, C]⟩ ⟨2, ![E, 1]⟩ ⟨2, ![E, C]⟩ [1] [0] [] [0] [] 1 ![1, C])
    (e : Fin E) (q : Fin C) :
    (rowGatherDims N E C wf).offCoord (ix2 e q) 1 = q.val := by
  unfold GatherDims.offCoord
  rw [dif_pos (show (1 : Fin 2) ∈ (rowGatherDims N E C wf).sKept from
    (GatherDims.mem_sKept _ _).mpr ⟨(by decide : (1 : Fin 2) ∉ [(0 : Fin 2)]), List.not_mem_nil⟩)]
  rfl

/-- THE ROW GATHER READ AT `(e, q)`: column `q` of the operand's row that the word `idx[e, 0]` names, read signed
    and clamped into `[0, N − 1]`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q)
      = x (ix2 (clampRow N hN (idx (ix2 e (0 : Fin 1)))) q) := by
  unfold Host.gather
  congr 1
  funext a
  refine Fin.ext ?_
  show (rowGatherDims N E C wf).start (ix2 e q) idx a + (rowGatherDims N E C wf).batchCoord (ix2 e q) a
    + (rowGatherDims N E C wf).offCoord (ix2 e q) a = _
  rw [GatherDims.batchCoord_eq_zero _ _ _ List.not_mem_nil]
  match a with
  | ⟨0, _⟩ =>
    show (rowGatherDims N E C wf).start (ix2 e q) idx 0 + 0 + (rowGatherDims N E C wf).offCoord (ix2 e q) 0 = _
    rw [rowGather_start0, rowGather_offCoord0]
    rfl
  | ⟨1, _⟩ =>
    show (rowGatherDims N E C wf).start (ix2 e q) idx 1 + 0 + (rowGatherDims N E C wf).offCoord (ix2 e q) 1 = _
    rw [rowGather_start1, rowGather_offCoord1]
    simp

end GatherRows

/-! ## Elements of a vector gathered by an index column -/

section GatherVec
variable {α : Type}

/-- The dimension numbers of `x[idx]` for a vector `[N]`, an index column `[E, 1]` and the result `[E]`: the vector's
    one axis is indexed and collapsed. Their conditions `wf` are decided on a program's literal shapes. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result index `e` reads its one start-index component at `[e, 0]` of the index column. -/
theorem vecGather_siIdx {N E : Nat}
    (wf : GatherDims.WF ⟨1, ![N]⟩ ⟨2, ![E, 1]⟩ ⟨1, ![E]⟩ [] [0] [] [0] [] 1 ![1])
    (e : Fin E) (c : Fin (vecGatherDims N E wf).startIndexMap.length) :
    (vecGatherDims N E wf).siIdx (ix1 e) c = ix2 e (0 : Fin 1) := by
  funext b; refine Fin.ext ?_
  match b with
  | ⟨0, _⟩ => rfl
  | ⟨1, _⟩ =>
    have := c.isLt
    show c.val = 0
    simp only [List.length_singleton] at this
    omega

/-- THE VECTOR GATHER READ AT `e`: the vector's element that the word `idx[e, 0]` names, read signed and clamped into
    `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e (0 : Fin 1))))) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  rw [vecGather_siIdx]
  rfl

end GatherVec

/-! ## Rows added into the rows an index column names -/

section ScatterRows

/-- The dimension numbers of the row sum `x.at[idx].add(upd)` for an operand `[N, C]`, an index column `[E, 1]` and
    updates `[E, C]`: the word of `[e, 0]` names the operand's row, axis 1 of the updates is the window and goes to the
    operand's axis 1. Their conditions `wf` are decided on a program's literal shapes. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update index `(e, q)` reads its one start-index component at `[e, 0]` of the index column. -/
theorem rowScatter_siIdx {N E C : Nat}
    (wf : ScatterDims.WF ⟨2, ![N, C]⟩ ⟨2, ![E, 1]⟩ ⟨2, ![E, C]⟩ [1] [0] [0] 1)
    (e : Fin E) (q : Fin C) (c : Fin (rowScatterDims N E C wf).scatterDimsToOperandDims.length) :
    (rowScatterDims N E C wf).siIdx (ix2 e q) c = ix2 e (0 : Fin 1) := by
  funext b; refine Fin.ext ?_
  match b with
  | ⟨0, _⟩ => rfl
  | ⟨1, _⟩ =>
    have := c.isLt
    show c.val = 0
    simp only [List.length_singleton] at this
    omega

/-- On the row axis the window starts at the word of `[e, 0]`, read signed and not clamped. -/
theorem rowScatter_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) :
    (rowScatterDims N E C wf).start (ix2 e q) idx 0 = (idx (ix2 e (0 : Fin 1))).toInt := by
  unfold ScatterDims.start
  rw [dif_pos (show (0 : Fin 2) ∈ (rowScatterDims N E C wf).scatterDimsToOperandDims from List.mem_singleton.mpr rfl)]
  rw [rowScatter_siIdx]

/-- On the column axis, which the scatter index does not name, the window starts at 0. -/
theorem rowScatter_start1 {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) :
    (rowScatterDims N E C wf).start (ix2 e q) idx 1 = 0 := by
  unfold ScatterDims.start
  rw [dif_neg (show (1 : Fin 2) ∉ (rowScatterDims N E C wf).scatterDimsToOperandDims from
    (by decide : (1 : Fin 2) ∉ [(0 : Fin 2)]))]

/-- The operand's kept axes are the ones that are not the row axis. -/
theorem rowScatter_mem_sKept {N E C : Nat}
    (wf : ScatterDims.WF ⟨2, ![N, C]⟩ ⟨2, ![E, 1]⟩ ⟨2, ![E, C]⟩ [1] [0] [0] 1) (a : Fin 2) :
    a ∈ (rowScatterDims N E C wf).sKept ↔ a ∉ [(0 : Fin 2)] := by
  simp [ScatterDims.sKept, Shape.kept, List.mem_filter, List.mem_finRange]

/-- The row axis is an inserted window axis: the window coordinate on it is 0. -/
theorem rowScatter_window0 {N E C : Nat}
    (wf : ScatterDims.WF ⟨2, ![N, C]⟩ ⟨2, ![E, 1]⟩ ⟨2, ![E, C]⟩ [1] [0] [0] 1)
    (e : Fin E) (q : Fin C) :
    (rowScatterDims N E C wf).window (ix2 e q) 0 = 0 := by
  unfold ScatterDims.window
  rw [dif_neg (show (0 : Fin 2) ∉ (rowScatterDims N E C wf).sKept from fun h =>
    (rowScatter_mem_sKept wf 0).mp h (List.mem_singleton.mpr rfl))]

/-- The column axis is the one kept axis: the window coordinate on it is the update's column. -/
theorem rowScatter_window1 {N E C : Nat}
    (wf : ScatterDims.WF ⟨2, ![N, C]⟩ ⟨2, ![E, 1]⟩ ⟨2, ![E, C]⟩ [1] [0] [0] 1)
    (e : Fin E) (q : Fin C) :
    (rowScatterDims N E C wf).window (ix2 e q) 1 = q.val := by
  unfold ScatterDims.window
  rw [dif_pos (show (1 : Fin 2) ∈ (rowScatterDims N E C wf).sKept from
    (rowScatter_mem_sKept wf 1).mpr (by decide : (1 : Fin 2) ∉ [(0 : Fin 2)]))]
  rfl

/-- WHERE UPDATE `(e, q)` LANDS: on column `q` of the row the word `idx[e, 0]` names, when that word read signed is a
    row of the operand; nowhere when it is not. -/
theorem scatter_rows_resultIdx {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) :
    (rowScatterDims N E C wf).resultIdx? (ix2 e q) idx
      = (landRow N (idx (ix2 e (0 : Fin 1)))).map fun p => ix2 p q := by
  have hs0 := rowScatter_start0 wf idx e q
  have hs1 := rowScatter_start1 wf idx e q
  have hw0 := rowScatter_window0 wf e q
  have hw1 := rowScatter_window1 wf e q
  unfold ScatterDims.resultIdx? landRow
  by_cases h : 0 ≤ (idx (ix2 e (0 : Fin 1))).toInt ∧ (idx (ix2 e (0 : Fin 1))).toInt < (N : Int)
  · have hall : ∀ a : Fin 2, 0 ≤ (rowScatterDims N E C wf).start (ix2 e q) idx a + (rowScatterDims N E C wf).window (ix2 e q) a ∧
        (rowScatterDims N E C wf).start (ix2 e q) idx a + (rowScatterDims N E C wf).window (ix2 e q) a
          < ((⟨2, ![N, C]⟩ : Shape).size a : Int) := by
      intro a
      match a with
      | ⟨0, _⟩ =>
        show 0 ≤ (rowScatterDims N E C wf).start (ix2 e q) idx 0 + (rowScatterDims N E C wf).window (ix2 e q) 0 ∧
          (rowScatterDims N E C wf).start (ix2 e q) idx 0 + (rowScatterDims N E C wf).window (ix2 e q) 0 < (N : Int)
        rw [hs0, hw0]
        omega
      | ⟨1, _⟩ =>
        show 0 ≤ (rowScatterDims N E C wf).start (ix2 e q) idx 1 + (rowScatterDims N E C wf).window (ix2 e q) 1 ∧
          (rowScatterDims N E C wf).start (ix2 e q) idx 1 + (rowScatterDims N E C wf).window (ix2 e q) 1 < (C : Int)
        rw [hs1, hw1]
        have := q.isLt
        omega
    rw [dif_pos hall, dif_pos h]
    simp only [Option.map_some]
    congr 1
    funext a
    refine Fin.ext ?_
    match a with
    | ⟨0, _⟩ =>
      show ((rowScatterDims N E C wf).start (ix2 e q) idx 0 + (rowScatterDims N E C wf).window (ix2 e q) 0).toNat = _
      rw [hs0, hw0]
      simp
    | ⟨1, _⟩ =>
      show ((rowScatterDims N E C wf).start (ix2 e q) idx 1 + (rowScatterDims N E C wf).window (ix2 e q) 1).toNat = _
      rw [hs1, hw1]
      simp
  · rw [dif_neg h, dif_neg]
    · rfl
    · intro hall
      have h0 := hall 0
      rw [hs0, hw0] at h0
      exact h (by
        obtain ⟨h1, h2⟩ := h0
        refine ⟨by omega, ?_⟩
        have : (((⟨2, ![N, C]⟩ : Shape).size 0 : Nat) : Int) = (N : Int) := rfl
        omega)

end ScatterRows

/-! ## The row sum at an index -/

section ScatterAddRows

/-- THE ROW SUM READ AT `(p, q)`: the operand's element plus the sum, over the rows `e` of the updates whose word
    `idx[e, 0]` names row `p`, of the update's element in column `q`. The library's sum runs over update indices
    `(e, q')` that land on `(p, q)`; such an index has `q' = q`, so it is its row `e`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (p : Fin N) (q : Fin C) :
    Ideal.hostScatterAdd (rowScatterDims N E C wf) x idx upd (ix2 p q)
      = x (ix2 p q) + ∑ e ∈ Finset.univ.filter (fun e : Fin E => landRow N (idx (ix2 e (0 : Fin 1))) = some p),
          upd (ix2 e q) := by
  unfold Ideal.hostScatterAdd
  congr 1
  symm
  refine Finset.sum_bij (fun e _ => ix2 e q) ?_ ?_ ?_ ?_
  · intro e he
    rw [Finset.mem_filter] at he ⊢
    refine ⟨Finset.mem_univ _, ?_⟩
    rw [scatter_rows_resultIdx, he.2]
    rfl
  · intro e _ e' _ hee
    exact congrFun hee 0
  · intro j hj
    rw [Finset.mem_filter] at hj
    obtain ⟨e, q', rfl⟩ : ∃ (e : Fin E) (q' : Fin C), j = ix2 e q' := ⟨j 0, j 1, eq_ix2 j⟩
    have h := hj.2
    rw [scatter_rows_resultIdx] at h
    cases hl : landRow N (idx (ix2 e (0 : Fin 1))) with
    | none => rw [hl] at h; exact absurd h (by simp)
    | some p' =>
      rw [hl] at h
      have h2 : ix2 p' q' = ix2 p q := Option.some.inj h
      have hp : p' = p := congrFun h2 0
      have hq : q' = q := congrFun h2 1
      subst hp; subst hq
      exact ⟨e, Finset.mem_filter.mpr ⟨Finset.mem_univ _, hl⟩, rfl⟩
  · intro e _
    rfl

end ScatterAddRows

/-! ## A sum of reals into reals is real -/

/-- A finite sum of extended reals that are all reals is a real. -/
theorem sum_coe_real {ι : Type*} (S : Finset ι) (f : ι → EReal) (hf : ∀ j, ∃ r : ℝ, f j = (r : EReal)) :
    ∃ r : ℝ, ∑ j ∈ S, f j = (r : EReal) := by
  classical
  induction S using Finset.induction_on with
  | empty => exact ⟨0, by simp⟩
  | insert a S ha ih =>
    obtain ⟨r1, h1⟩ := hf a
    obtain ⟨r2, h2⟩ := ih
    exact ⟨r1 + r2, by rw [Finset.sum_insert ha, h1, h2, EReal.coe_add]⟩

/-- A scatter with addition, of real updates into a real operand, has real elements — whatever the dimension
    numbers and the indices: each element is a real plus a finite sum of reals. -/
theorem scatterAdd_finite {s si su : Shape} (d : ScatterDims s si su) {w : Nat} (x : s.Idx → EReal) (idx : IVec si w)
    (upd : su.Idx → EReal) (hx : ∀ i, ∃ r : ℝ, x i = (r : EReal)) (hu : ∀ j, ∃ r : ℝ, upd j = (r : EReal)) :
    ∀ i, ∃ r : ℝ, Ideal.hostScatterAdd d x idx upd i = (r : EReal) := by
  intro i
  unfold Ideal.hostScatterAdd
  obtain ⟨r1, h1⟩ := hx i
  obtain ⟨r2, h2⟩ := sum_coe_real (Finset.univ.filter (fun j => d.resultIdx? j idx = some i)) upd hu
  exact ⟨r1 + r2, by rw [h1, h2, EReal.coe_add]⟩

end Idealize.ShloMosaic.ValueIdx

end
-- ==== Proof.LibConcatAt.lean ====
import Idealize.ShloMosaic.Lib.ValueIdx
import Idealize.ShloMosaic.Lib.Pipeline.Value

/-!
# A concatenation of matrices read at an entry

Two corollaries of the library's reading of a concatenation at an index (`concatenate_apply_piece`), in the two
forms a row-by-row or column-by-column assembly needs, with every index written by its coordinates:

* matrices [Wₖ, N] stacked on top of each other (axis 0) into [R, N]: entry `(j, r)` of the stack is entry
  `(p, r)` of piece `k` when the pieces before `k` have `pre` rows together and `j = pre + p`;
* matrices [N, Wₖ] set side by side (axis 1) into [N, K]: entry `(n, j)` is entry `(n, p)` of piece `k` when the
  pieces before `k` have `pre` columns together and `j = pre + p`.

The piece is named by an equation `xs[k]? = some ⟨shape, x₁⟩`, which for a literal list and a literal `k` is
decided by walking the list and tells Lean what `x₁` is; the count `pre` is a sum over a literal prefix of the list. Nothing here depends
on what the entries are.
-/

namespace Cert.LibConcatAt

open Idealize.ShloMosaic Idealize.ShloMosaic.ValueIdx

variable {α : Type}

/-- The extents of the pieces along axis `a` of the result, as the library's lemma sums them. -/
abbrev extents {t : Shape} (a : Fin t.rank) (ss : List Shape) : List Nat :=
  ss.map fun s => if h : s.rank = t.rank then s.size (a.cast h.symm) else 0

/-- Matrices stacked on top of each other, read at `(j, r)`: row `p` of piece `k`, where `j = pre + p` and `pre`
    is the number of rows of the pieces before `k`. -/
theorem stacked_at {R N W : ℕ} (xs : List ((s : Shape) × (s.Idx → α)))
    (h : Shape.Concatenates (xs.map (·.1)) ⟨2, ![R, N]⟩ (0 : Fin 2)) (j : Fin R) (r : Fin N)
    (k : ℕ) (x₁ : (⟨2, ![W, N]⟩ : Shape).Idx → α) (hxk : xs[k]? = some ⟨⟨2, ![W, N]⟩, x₁⟩)
    (pre : ℕ) (hpre : (extents (t := ⟨2, ![R, N]⟩) (0 : Fin 2) ((xs.take k).map (·.1))).sum = pre)
    (p : Fin W) (hj : pre + p.val = j.val) :
    concatenate ⟨2, ![R, N]⟩ (0 : Fin 2) xs h (ix2 j r) = x₁ (ix2 p r) := by
  obtain ⟨hk, hxk'⟩ := List.getElem?_eq_some_iff.mp hxk
  exact concatenate_apply_piece (t := ⟨2, ![R, N]⟩) (0 : Fin 2) xs h (ix2 j r) k hk ⟨2, ![W, N]⟩ x₁ hxk' rfl pre hpre (ix2 p r)
    (fun b hb => by
      match b with
      | ⟨0, _⟩ => exact absurd rfl hb
      | ⟨1, _⟩ => rfl) hj

/-- Matrices set side by side, read at `(n, j)`: column `p` of piece `k`, where `j = pre + p` and `pre` is the
    number of columns of the pieces before `k`. -/
theorem sideBySide_at {N K W : ℕ} (xs : List ((s : Shape) × (s.Idx → α)))
    (h : Shape.Concatenates (xs.map (·.1)) ⟨2, ![N, K]⟩ (1 : Fin 2)) (n : Fin N) (j : Fin K)
    (k : ℕ) (x₁ : (⟨2, ![N, W]⟩ : Shape).Idx → α) (hxk : xs[k]? = some ⟨⟨2, ![N, W]⟩, x₁⟩)
    (pre : ℕ) (hpre : (extents (t := ⟨2, ![N, K]⟩) (1 : Fin 2) ((xs.take k).map (·.1))).sum = pre)
    (p : Fin W) (hj : pre + p.val = j.val) :
    concatenate ⟨2, ![N, K]⟩ (1 : Fin 2) xs h (ix2 n j) = x₁ (ix2 n p) := by
  obtain ⟨hk, hxk'⟩ := List.getElem?_eq_some_iff.mp hxk
  exact concatenate_apply_piece (t := ⟨2, ![N, K]⟩) (1 : Fin 2) xs h (ix2 n j) k hk ⟨2, ![N, W]⟩ x₁ hxk' rfl pre hpre (ix2 n p)
    (fun b hb => by
      match b with
      | ⟨0, _⟩ => rfl
      | ⟨1, _⟩ => exact absurd rfl hb) hj

/-- Rows [1, N] stacked into [R, N]: row `j` of the stack is the `j`-th piece. The piece is found by walking the
    list to position `j`; that the `j` pieces before it are one row each is a sum over the prefix. -/
theorem stackedRows_at {R N : ℕ} (xs : List ((s : Shape) × (s.Idx → α)))
    (h : Shape.Concatenates (xs.map (·.1)) ⟨2, ![R, N]⟩ (0 : Fin 2)) (j : Fin R) (r : Fin N)
    (x₁ : (⟨2, ![1, N]⟩ : Shape).Idx → α) (hxk : xs[j.val]? = some ⟨⟨2, ![1, N]⟩, x₁⟩)
    (hpre : (extents (t := ⟨2, ![R, N]⟩) (0 : Fin 2) ((xs.take j.val).map (·.1))).sum = j.val) :
    concatenate ⟨2, ![R, N]⟩ (0 : Fin 2) xs h (ix2 j r) = x₁ (ix2 0 r) :=
  stacked_at xs h j r j.val x₁ hxk j.val hpre 0 rfl

/-- Columns [N, 1] set side by side into [N, K]: column `j` of the result is the `j`-th piece. -/
theorem columns_at {N K : ℕ} (xs : List ((s : Shape) × (s.Idx → α)))
    (h : Shape.Concatenates (xs.map (·.1)) ⟨2, ![N, K]⟩ (1 : Fin 2)) (n : Fin N) (j : Fin K)
    (x₁ : (⟨2, ![N, 1]⟩ : Shape).Idx → α) (hxk : xs[j.val]? = some ⟨⟨2, ![N, 1]⟩, x₁⟩)
    (hpre : (extents (t := ⟨2, ![N, K]⟩) (1 : Fin 2) ((xs.take j.val).map (·.1))).sum = j.val) :
    concatenate ⟨2, ![N, K]⟩ (1 : Fin 2) xs h (ix2 n j) = x₁ (ix2 n 0) :=
  sideBySide_at xs h n j j.val x₁ hxk j.val hpre 0 rfl

end Cert.LibConcatAt
-- ==== Proof.SharedEdgeSums.lean ====
/-
  The edge sums are the same array in both programs. The kernel's first launch leaves x·W1 + b1 with the bias laid out
  as a row by a reshape; the reference adds the bias spread by two broadcasts to its product: entry (p, q) of both is
  Σ_k x(p,k)·W1(k,q) + b1(q). From that array on, both programs gather by the same wrapped vertex words, scale by the
  same weights and sum by the same edge words: one function, never opened here.
-/
import proofs.«102758_j63153199120592_2_alg».proof.Proof.HostStages
import proofs.«102758_j63153199120592_2_alg».proof.Proof.RowMaps
import proofs.«102758_j63153199120592_2_alg».proof.Proof.Gen.ReferenceIdeal.Read
import Idealize.ShloMosaic.Lib.ValueLayout
import Idealize.ShloMosaic.Lib.ValueIdx
import Idealize.ShloMosaic.PureOps.Ideal

noncomputable section

open scoped BigOperators
open Idealize.ShloMosaic Idealize.ShloMosaic.ValueIdx

namespace Cert.SharedEdgeSums

open Cert.KernelIdeal Cert.KernelIdeal.Facts₀ Cert.KernelIdeal.Facts Cert.KernelIdeal.HostStages Cert.RowMaps Cert.ReferenceIdeal.Read

variable (x0 : (⟨S100000x32, .f32⟩ : BufTy).Contents (Elt Ideal)) (x2 : (⟨S3200000x1, .f32⟩ : BufTy).Contents (Elt Ideal))
  (x3 : (⟨S32x32, .f32⟩ : BufTy).Contents (Elt Ideal)) (x4 : (⟨S32, .f32⟩ : BufTy).Contents (Elt Ideal))
  (x9 x10 : (⟨S3200000, .i32⟩ : BufTy).Contents (Elt Ideal))

/-- A vector laid out as a row, read at (0, q). -/
theorem biasRow_at (b : (⟨S32, .f32⟩ : BufTy).Contents (Elt Ideal)) (u : Fin 1) (q : Fin 32) :
    biasRow b (ix2 u q) = b (ix1 q) :=
  shapeCast_a_1a_apply b shapeCasts_S32_S1x32 u q

/-- The first projection is the reference's x·W1 + b1. -/
theorem first_projection : affine x0 x3 (biasRow x4) = val_main_v3 x0 x3 x4 := by
  funext i
  obtain ⟨p, q, rfl⟩ : ∃ (p : Fin 100000) (q : Fin 32), i = ix2 p q := ⟨i 0, i 1, eq_ix2 i⟩
  rw [val_main_v3_apply, val_main_v0_apply, val_main_v2_apply, val_main_v1_apply]
  show rowDot x0 x3 p q + biasRow x4 (ix2 (0 : Fin 1) q) = _
  rw [biasRow_at]
  have el : ∀ k : Fin 32, Cert.ReferenceIdeal.Read.lidx_main_v0 (ix2 p q) k = ix2 p k := fun k =>
    funext fun a => Fin.ext (by match a with | ⟨0, _⟩ => rfl | ⟨1, _⟩ => rfl)
  have er : ∀ k : Fin 32, Cert.ReferenceIdeal.Read.ridx_main_v0 (ix2 p q) k = ix2 k q := fun k =>
    funext fun a => Fin.ext (by match a with | ⟨0, _⟩ => rfl | ⟨1, _⟩ => rfl)
  have eb : Cert.ReferenceIdeal.Read.idx_main_v1 (Cert.ReferenceIdeal.Read.idx_main_v2 (ix2 p q)) = ix1 q :=
    funext fun a => Fin.ext (by match a with | ⟨0, _⟩ => rfl)
  simp only [el, er, eb]
  rfl

/-- THE EDGE SUMS of the kernel's program are the reference's. -/
theorem edgeSums_eq : edgeSums (affine x0 x3 (biasRow x4)) x2 x9 x10 = val_main_v15 x0 x2 x3 x4 x9 x10 := by
  rw [first_projection]
  rfl

end Cert.SharedEdgeSums

end
-- ==== Proof.Incidences.lean ====
/-
  The kernel's scattered table and second projection read at an entry.

  With S_v the set of incidences whose vertex word, read signed, is the node row v:
  * the count column of the scattered table at row v is 0 + Σ_{e∈S_v} 1;
  * message column k at row v is 0 + Σ_{e∈S_v} Σ_j xe(h e, j)·W2(32 + j, k), where xe is the edge table the product was
    taken of and h e the edge row that incidence e's wrapped, clamped edge word names;
  * the second projection at (v, k) is Σ_j x(v, j)·W2(j, k) + b2(k).
-/
import proofs.«102758_j63153199120592_2_alg».proof.Proof.HostStages
import proofs.«102758_j63153199120592_2_alg».proof.Proof.RowMaps
import proofs.«102758_j63153199120592_2_alg».proof.Proof.LibGatherScatter
import proofs.«102758_j63153199120592_2_alg».proof.Proof.LibConcatAt
import proofs.«102758_j63153199120592_2_alg».proof.Proof.SharedEdgeSums
import Idealize.ShloMosaic.Lib.ValueLayout
import Idealize.ShloMosaic.Lib.ValueIdx
import Idealize.ShloMosaic.Lib.IdealHost
import Idealize.ShloMosaic.PureOps.Ideal.Laws

noncomputable section

open scoped BigOperators
open Idealize.ShloMosaic Idealize.ShloMosaic.ValueIdx

namespace Cert.Incidences

open Cert.KernelIdeal Cert.KernelIdeal.Facts₀ Cert.KernelIdeal.Facts Cert.KernelIdeal.HostStages Cert.RowMaps

/-- The incidences whose vertex word names node row v. -/
def landing (vtx : (⟨S3200000, .i32⟩ : BufTy).Contents (Elt Ideal)) (v : Fin 100000) : Finset (Fin 3200000) :=
  Finset.univ.filter fun e : Fin 3200000 => landRow 100000 (column (F := Ideal) vtx (ix2 e (0 : Fin 1))) = some v

/-- The edge row incidence e's edge word names: wrapped if negative, then clamped into the table. -/
def edgeRow (edg : (⟨S3200000, .i32⟩ : BufTy).Contents (Elt Ideal)) (e : Fin 3200000) : Fin 50000 :=
  clampRow 50000 (by decide) (wrapEdges (F := Ideal) edg (ix2 e (0 : Fin 1)))

/-- A table of zeros read anywhere. -/
theorem zeros33_at (i : S100000x33.Idx) :
    broadcastInDim S100000x33 ![] bcast_S_S100000x33 (constant (F := Ideal) S_ .f32 0x00000000#32) i = 0 :=
  (broadcastInDim_apply _ bcast_S_S100000x33 (constant (F := Ideal) S_ .f32 0x00000000#32) i (fun a => a.elim0) (fun a => a.elim0)).trans
    Ideal.ofBits_zero_f32

/-- The appended column is all ones. -/
theorem ones_at (i : S3200000x1.Idx) :
    broadcastInDim S3200000x1 ![] bcast_S_S3200000x1 (constant (F := Ideal) S_ .f32 0x3F800000#32) i = 1 :=
  (broadcastInDim_apply _ bcast_S_S3200000x1 (constant (F := Ideal) S_ .f32 0x3F800000#32) i (fun a => a.elim0) (fun a => a.elim0)).trans
    Ideal.ofBits_one_f32

variable (y : (⟨S50000x32, .f32⟩ : BufTy).Contents (Elt Ideal)) (vtx edg : (⟨S3200000, .i32⟩ : BufTy).Contents (Elt Ideal))

/-- The appended 1 of incidence e. -/
theorem messages_count (e : Fin 3200000) : messages y edg (ix2 e (32 : Fin 33)) = 1 := by
  have h := Cert.LibConcatAt.sideBySide_at (α := EReal) (N := 3200000) (K := 33) (W := 1)
    [⟨S3200000x32, Host.gather gather_S50000x32_S3200000x1_S3200000x32_1_0_n_n_0_1_132 y (wrapEdges edg)⟩,
     ⟨S3200000x1, broadcastInDim S3200000x1 ![] bcast_S_S3200000x1 (constant (F := Ideal) S_ .f32 0x3F800000#32)⟩]
    concatenates_S3200000x32_S3200000x1_S3200000x33_d1 e (32 : Fin 33) 1 _ rfl 32 rfl (0 : Fin 1) rfl
  exact h.trans (ones_at _)

theorem gather50000_eq : gather_S50000x32_S3200000x1_S3200000x32_1_0_n_n_0_1_132
    = rowGatherDims 50000 3200000 32 gather_S50000x32_S3200000x1_S3200000x32_1_0_n_n_0_1_132_wf := rfl

/-- Column k of incidence e's message is column k of the row of y its edge word names. -/
theorem messages_row (e : Fin 3200000) (k : Fin 32) :
    messages y edg (ix2 e (⟨k.val, by omega⟩ : Fin 33)) = y (ix2 (edgeRow edg e) k) := by
  have h := Cert.LibConcatAt.sideBySide_at (α := EReal) (N := 3200000) (K := 33) (W := 32)
    [⟨S3200000x32, Host.gather gather_S50000x32_S3200000x1_S3200000x32_1_0_n_n_0_1_132 y (wrapEdges edg)⟩,
     ⟨S3200000x1, broadcastInDim S3200000x1 ![] bcast_S_S3200000x1 (constant (F := Ideal) S_ .f32 0x3F800000#32)⟩]
    concatenates_S3200000x32_S3200000x1_S3200000x33_d1 e (⟨k.val, by omega⟩ : Fin 33) 0 _ rfl 0 rfl k (by simp)
  refine h.trans ?_
  rw [gather50000_eq, gather_rows_apply (by decide)]
  rfl

/-- The scattered table is the exact row sum over the row record. -/
theorem nodeSums_fn : nodeSums y vtx edg
    = Ideal.hostScatterAdd (rowScatterDims 100000 3200000 33 scatter_S100000x33_S3200000x1_S3200000x33_1_0_0_1_wf)
        (broadcastInDim S100000x33 ![] bcast_S_S100000x33 (constant (F := Ideal) S_ .f32 0x00000000#32))
        (column vtx) (messages y edg) := rfl

/-- THE SCATTERED TABLE AT AN ENTRY: from zero, the sum over the landing incidences of their messages' entry. -/
theorem nodeSums_at (v : Fin 100000) (j : Fin 33) :
    nodeSums y vtx edg (ix2 v j) = 0 + ∑ e ∈ landing vtx v, messages y edg (ix2 e j) := by
  show _ = 0 + ∑ e ∈ Finset.univ.filter (fun e : Fin 3200000 => landRow 100000 (column (F := Ideal) vtx (ix2 e (0 : Fin 1))) = some v),
    messages y edg (ix2 e j)
  rw [nodeSums_fn, scatterAdd_rows_apply, zeros33_at]

/-- The count column. -/
theorem count_at (v : Fin 100000) :
    nodeSums y vtx edg (ix2 v (32 : Fin 33)) = 0 + ∑ _e ∈ landing vtx v, (1 : EReal) := by
  rw [nodeSums_at]
  refine congrArg (0 + ·) (Finset.sum_congr rfl fun e _ => messages_count y edg e)

/-- A message column. -/
theorem message_at (v : Fin 100000) (k : Fin 32) :
    nodeSums y vtx edg (ix2 v (⟨k.val, by omega⟩ : Fin 33)) = 0 + ∑ e ∈ landing vtx v, y (ix2 (edgeRow edg e) k) := by
  rw [nodeSums_at]
  refine congrArg (0 + ·) (Finset.sum_congr rfl fun e _ => messages_row y edg e k)

/-- Entry (j, k) of the lower half of the [64, 32] matrix is entry (32 + j, k). -/
theorem lower_at (w : (⟨S64x32, .f32⟩ : BufTy).Contents (Elt Ideal)) (j k : Fin 32) :
    lower w (ix2 j k) = w (ix2 (⟨32 + j.val, by omega⟩ : Fin 64) k) :=
  slice2_axis0_apply 32 w slices_S64x32_S32x32_32_0 j k _ rfl

/-- Entry (j, k) of the upper half is entry (j, k). -/
theorem upper_at (w : (⟨S64x32, .f32⟩ : BufTy).Contents (Elt Ideal)) (j k : Fin 32) :
    upper w (ix2 j k) = w (ix2 (⟨j.val, by omega⟩ : Fin 64) k) :=
  slice2_axis0_apply 0 w slices_S64x32_S32x32_0_0 j k _ (by simp)

/-- The second projection at (v, k). -/
theorem second_projection_at (x0 : (⟨S100000x32, .f32⟩ : BufTy).Contents (Elt Ideal)) (w : (⟨S64x32, .f32⟩ : BufTy).Contents (Elt Ideal))
    (b : (⟨S32, .f32⟩ : BufTy).Contents (Elt Ideal)) (v : Fin 100000) (k : Fin 32) :
    affine x0 (upper w) (biasRow b) (ix2 v k)
      = (∑ j : Fin 32, x0 (ix2 v j) * w (ix2 (⟨j.val, by omega⟩ : Fin 64) k)) + b (ix1 k) := by
  show rowDot x0 (upper w) v k + biasRow b (ix2 (0 : Fin 1) k) = _
  rw [Cert.SharedEdgeSums.biasRow_at]
  unfold rowDot
  refine congrArg (· + b (ix1 k)) (Finset.sum_congr rfl fun j _ => ?_)
  rw [upper_at]

/-- The edge product at (h, k). -/
theorem edge_product_at (xe : (⟨S50000x32, .f32⟩ : BufTy).Contents (Elt Ideal)) (w : (⟨S64x32, .f32⟩ : BufTy).Contents (Elt Ideal))
    (h : Fin 50000) (k : Fin 32) :
    product xe (lower w) (ix2 h k) = ∑ j : Fin 32, xe (ix2 h j) * w (ix2 (⟨32 + j.val, by omega⟩ : Fin 64) k) := by
  show rowDot xe (lower w) h k = _
  unfold rowDot
  refine Finset.sum_congr rfl fun j _ => ?_
  rw [lower_at]

end Cert.Incidences

end
-- ==== Proof.LibRegroup.lean ====
/-
  The regrouping that moves a linear map out of a sum over incidences, on the extended reals, with no finiteness.

  For a finite set S of incidences, a term A + b that does not depend on the incidence and a term B e that does,
    (Σ_{e∈S} 1) · (A + b) + Σ_{e∈S} B e = Σ_{e∈S} ((A + B e) + b).
  Only commutativity and associativity of + are used, and that a count of ones times x is x added that many times:
  the count is a sum of non-negative terms, and non-negative factors distribute over + on the right on the extended
  reals whatever x is. Also here: a sum over 64 indices cut into its two halves.
  General: nothing here depends on a particular program; Mathlib imports only.
-/
import Mathlib.Data.EReal.Operations
import Mathlib.Algebra.BigOperators.Fin
import Mathlib.Algebra.Order.BigOperators.Group.Finset

open scoped BigOperators

namespace Cert.Regroup

/-- A count of ones times x is x added that many times. -/
theorem count_mul {ι : Type*} (S : Finset ι) (x : EReal) : (∑ _e ∈ S, (1 : EReal)) * x = ∑ _e ∈ S, x := by
  classical
  induction S using Finset.induction_on with
  | empty => simp
  | insert a S ha ih =>
    rw [Finset.sum_insert ha, Finset.sum_insert ha,
      EReal.right_distrib_of_nonneg zero_le_one (Finset.sum_nonneg fun _ _ => zero_le_one), one_mul, ih]

/-- The regrouping, each sum started from zero as a scatter-add into a zero table leaves it. -/
theorem regroup {ι : Type*} (S : Finset ι) (A b : EReal) (B : ι → EReal) :
    (0 + ∑ _e ∈ S, (1 : EReal)) * (A + b) + (0 + ∑ e ∈ S, B e) = 0 + ∑ e ∈ S, ((A + B e) + b) := by
  rw [zero_add, zero_add, zero_add, count_mul, ← Finset.sum_add_distrib]
  refine Finset.sum_congr rfl fun e _ => ?_
  rw [add_right_comm]

/-- A sum over 64 indices is the sum over the first 32 plus the sum over the last 32. -/
theorem sum_halves (f : Fin 64 → EReal) :
    ∑ j : Fin 64, f j = (∑ j : Fin 32, f ⟨j.val, by omega⟩) + ∑ j : Fin 32, f ⟨32 + j.val, by omega⟩ := by
  exact Fin.sum_univ_add (a := 32) (b := 32) (fun j : Fin (32 + 32) => f j)

end Cert.Regroup
-- ==== Proof.NodeSums.lean ====
/-
  The reference's node sums read at an entry, and the identity that joins the two programs.

  The reference sums, over the incidences e landing on node row v, the row  cat(e)·W2 + b2  with
  cat(e) = [x(row named by e's wrapped vertex word), xe(row named by e's wrapped edge word)]. An incidence lands on v
  only when its vertex word, read signed, IS v — a row of the table — so the wrap and the clamp leave it at v and the
  first half of cat(e) is row v of x. The sum over 64 columns cut into its halves gives
    Σ_{e∈S_v} ((Σ_j x(v,j)·W2(j,k) + Σ_j xe(h e,j)·W2(32+j,k)) + b2(k)),
  which the regrouping turns into the kernel's  count · (x·W2[0:32] + b2)(v,k) + Σ_{e∈S_v} (xe·W2[32:64])(h e, k).
-/
import proofs.«102758_j63153199120592_2_alg».proof.Proof.Incidences
import proofs.«102758_j63153199120592_2_alg».proof.Proof.LibRegroup
import proofs.«102758_j63153199120592_2_alg».proof.Proof.Gen.ReferenceIdeal.Read
import Idealize.ShloMosaic.Lib.Affine

noncomputable section

open scoped BigOperators
open Idealize.ShloMosaic Idealize.ShloMosaic.ValueIdx

namespace Cert.NodeSums

open Cert.KernelIdeal Cert.KernelIdeal.HostStages Cert.RowMaps Cert.Incidences Cert.ReferenceIdeal.Read

/-- A word that names a row is not negative, so the wrap of negative words leaves it alone. -/
theorem wrap_of_land {N : Nat} (w a : BitVec 32) (v : Fin N) (h : landRow N w = some v) :
    Scalar.select (IntOp.cmpi .slt w 0#32) a w = w := by
  have h0 : 0 ≤ w.toInt := by
    unfold landRow at h
    split at h
    · rename_i hv; exact hv.1
    · exact absurd h (by simp)
  unfold Scalar.select
  rw [if_neg]
  intro hc
  have hlt : w.toInt < (0#32 : BitVec 32).toInt := IntOp.cmpi_slt.mp hc
  rw [BitVec.toInt_zero] at hlt
  omega

variable (x0 : (⟨S100000x32, .f32⟩ : BufTy).Contents (Elt Ideal)) (x2 : (⟨S3200000x1, .f32⟩ : BufTy).Contents (Elt Ideal))
  (x3 : (⟨S32x32, .f32⟩ : BufTy).Contents (Elt Ideal)) (x4 : (⟨S32, .f32⟩ : BufTy).Contents (Elt Ideal))
  (x5 : (⟨S64x32, .f32⟩ : BufTy).Contents (Elt Ideal)) (x6 : (⟨S32, .f32⟩ : BufTy).Contents (Elt Ideal))
  (x9 x10 : (⟨S3200000, .i32⟩ : BufTy).Contents (Elt Ideal))

/-- For an incidence landing on v, the row its wrapped, clamped vertex word names is v. -/
theorem vertex_row (v : Fin 100000) (e : Fin 3200000) (he : e ∈ landing x9 v) :
    clampRow 100000 (by decide) (val_main_v21 (F := Ideal) x9 (ix2 e (0 : Fin 1))) = v := by
  have hland : landRow 100000 (column (F := Ideal) x9 (ix2 e (0 : Fin 1))) = some v := (Finset.mem_filter.mp he).2
  have hc : column (F := Ideal) x9 (ix2 e (0 : Fin 1)) = x9 (idx_main_v21 (ix2 e (0 : Fin 1))) :=
    val_main_v36_apply x9 (ix2 e (0 : Fin 1))
  rw [hc] at hland
  rw [val_main_v21_apply, val_main_v20_apply, val_main_v17_apply, val_main_v16_apply, val_main_c_1_apply,
    wrap_of_land _ _ v hland]
  exact landRow_clampRow (by decide) _ v hland

theorem gather100000_eq : Cert.ReferenceIdeal.gather_S100000x32_S3200000x1_S3200000x32_1_0_n_n_0_1_132
    = rowGatherDims 100000 3200000 32 Cert.ReferenceIdeal.Facts₀.gather_S100000x32_S3200000x1_S3200000x32_1_0_n_n_0_1_132_wf := rfl

theorem gather50000_eq : Cert.ReferenceIdeal.gather_S50000x32_S3200000x1_S3200000x32_1_0_n_n_0_1_132
    = rowGatherDims 50000 3200000 32 Cert.ReferenceIdeal.Facts₀.gather_S50000x32_S3200000x1_S3200000x32_1_0_n_n_0_1_132_wf := rfl

/-- The first 32 columns of an incidence's concatenated row are the row of x its vertex word names. -/
theorem cat_left (e : Fin 3200000) (j : Fin 32) :
    val_main_v30 (F := Ideal) x0 x2 x3 x4 x9 x10 (ix2 e (⟨j.val, by omega⟩ : Fin 64))
      = x0 (ix2 (clampRow 100000 (by decide) (val_main_v21 (F := Ideal) x9 (ix2 e (0 : Fin 1)))) j) := by
  have h := Cert.LibConcatAt.sideBySide_at (α := EReal) (N := 3200000) (K := 64) (W := 32)
    [⟨Cert.ReferenceIdeal.S3200000x32, val_main_v22 (F := Ideal) x0 x9⟩,
     ⟨Cert.ReferenceIdeal.S3200000x32, val_main_v29 (F := Ideal) x0 x2 x3 x4 x9 x10⟩]
    Cert.ReferenceIdeal.Facts₀.concatenates_S3200000x32_S3200000x32_S3200000x64_d1 e (⟨j.val, by omega⟩ : Fin 64) 0 _ rfl 0 rfl j (by simp)
  refine h.trans ?_
  show Host.gather Cert.ReferenceIdeal.gather_S100000x32_S3200000x1_S3200000x32_1_0_n_n_0_1_132 x0 (val_main_v21 x9) (ix2 e j) = _
  rw [gather100000_eq, gather_rows_apply (by decide)]

/-- The last 32 columns are the row of the edge sums its edge word names. -/
theorem cat_right (e : Fin 3200000) (j : Fin 32) :
    val_main_v30 (F := Ideal) x0 x2 x3 x4 x9 x10 (ix2 e (⟨32 + j.val, by omega⟩ : Fin 64))
      = val_main_v15 (F := Ideal) x0 x2 x3 x4 x9 x10 (ix2 (edgeRow x10 e) j) := by
  have h := Cert.LibConcatAt.sideBySide_at (α := EReal) (N := 3200000) (K := 64) (W := 32)
    [⟨Cert.ReferenceIdeal.S3200000x32, val_main_v22 (F := Ideal) x0 x9⟩,
     ⟨Cert.ReferenceIdeal.S3200000x32, val_main_v29 (F := Ideal) x0 x2 x3 x4 x9 x10⟩]
    Cert.ReferenceIdeal.Facts₀.concatenates_S3200000x32_S3200000x32_S3200000x64_d1 e (⟨32 + j.val, by omega⟩ : Fin 64) 1 _ rfl 32 rfl j rfl
  refine h.trans ?_
  show Host.gather Cert.ReferenceIdeal.gather_S50000x32_S3200000x1_S3200000x32_1_0_n_n_0_1_132 (val_main_v15 x0 x2 x3 x4 x9 x10) (val_main_v28 x10) (ix2 e j) = _
  rw [gather50000_eq, gather_rows_apply (by decide)]
  rfl

/-- The reference's zero table read anywhere. -/
theorem zeros_at (i : Cert.ReferenceIdeal.S100000x32.Idx) : val_main_v35 (F := Ideal) i = 0 := by
  rw [val_main_v35_apply, val_main_cst_5_apply]
  exact Ideal.ofBits_zero_f32

/-- The reference's node sums are the exact row sum over the row record. -/
theorem reference_fn : val_main_v37 (F := Ideal) x0 x2 x3 x4 x5 x6 x9 x10
    = Ideal.hostScatterAdd (rowScatterDims 100000 3200000 32 Cert.ReferenceIdeal.Facts₀.scatter_S100000x32_S3200000x1_S3200000x32_1_0_0_1_wf)
        (val_main_v35 (F := Ideal)) (val_main_v36 (F := Ideal) x9) (val_main_v34 (F := Ideal) x0 x2 x3 x4 x5 x6 x9 x10) := rfl

/-- THE REFERENCE'S NODE SUMS AT (v, k). -/
theorem reference_at (v : Fin 100000) (k : Fin 32) :
    val_main_v37 (F := Ideal) x0 x2 x3 x4 x5 x6 x9 x10 (ix2 v k)
      = 0 + ∑ e ∈ landing x9 v,
          (((∑ j : Fin 32, x0 (ix2 v j) * x5 (ix2 (⟨j.val, by omega⟩ : Fin 64) k))
            + ∑ j : Fin 32, val_main_v15 (F := Ideal) x0 x2 x3 x4 x9 x10 (ix2 (edgeRow x10 e) j) * x5 (ix2 (⟨32 + j.val, by omega⟩ : Fin 64) k))
           + x6 (ix1 k)) := by
  rw [reference_fn, scatterAdd_rows_apply, zeros_at]
  refine congrArg (0 + ·) ?_
  show ∑ e ∈ landing x9 v, val_main_v34 (F := Ideal) x0 x2 x3 x4 x5 x6 x9 x10 (ix2 e k) = _
  refine Finset.sum_congr rfl fun e he => ?_
  rw [val_main_v34_apply, val_main_v31_apply, val_main_v33_apply, val_main_v32_apply, Cert.Regroup.sum_halves]
  have el : ∀ j : Fin 64, lidx_main_v31 (ix2 e k) j = ix2 e j := fun j =>
    funext fun a => Fin.ext (by match a with | ⟨0, _⟩ => rfl | ⟨1, _⟩ => rfl)
  have er : ∀ j : Fin 64, ridx_main_v31 (ix2 e k) j = ix2 j k := fun j =>
    funext fun a => Fin.ext (by match a with | ⟨0, _⟩ => rfl | ⟨1, _⟩ => rfl)
  have eb : idx_main_v32 (idx_main_v33 (ix2 e k)) = ix1 k :=
    funext fun a => Fin.ext (by match a with | ⟨0, _⟩ => rfl)
  simp only [el, er, eb, cat_left, cat_right, vertex_row x9 v e he]
  rfl

/-- THE IDENTITY: count · second projection + message = the reference's node sum, entry by entry. -/
theorem regrouped (v : Fin 100000) (k : Fin 32) :
    nodeSums (product (edgeSums (affine x0 x3 (biasRow x4)) x2 x9 x10) (lower x5)) x9 x10 (ix2 v (32 : Fin 33))
        * affine x0 (upper x5) (biasRow x6) (ix2 v k)
      + nodeSums (product (edgeSums (affine x0 x3 (biasRow x4)) x2 x9 x10) (lower x5)) x9 x10 (ix2 v (⟨k.val, by omega⟩ : Fin 33))
      = val_main_v37 (F := Ideal) x0 x2 x3 x4 x5 x6 x9 x10 (ix2 v k) := by
  rw [count_at, message_at, second_projection_at, reference_at,
    Finset.sum_congr rfl fun e _ => edge_product_at (edgeSums (affine x0 x3 (biasRow x4)) x2 x9 x10) x5 (edgeRow x10 e) k,
    Cert.SharedEdgeSums.edgeSums_eq]
  exact Cert.Regroup.regroup _ _ _ _

end Cert.NodeSums

end
-- ==== Proof.SameResult.lean ====
/-
  The kernel's result is the reference's, as functions of the eleven argument arrays, entry by entry, for ALL arrays:
  no entry needs to be finite and the index words may be anything.

  Entry (v, q) of both is Σ_k (½·Xv(v,k) + ½·x0(v,k))·W(k,q) + b(q), where the reference has the node sum Xv(v,k) and
  the kernel has count(v) · x2(v,k) + message(v,k): equal by the regrouping over the incidences landing on v.
-/
import proofs.«102758_j63153199120592_2_alg».proof.Proof.KernelWhole
import proofs.«102758_j63153199120592_2_alg».proof.Proof.NodeSums

noncomputable section

open scoped BigOperators
open Idealize.ShloMosaic Idealize.ShloMosaic.ValueIdx

namespace Cert.SameResult

open Cert.KernelIdeal Cert.KernelIdeal.HostStages Cert.RowMaps Cert.KernelIdeal.Whole Cert.ReferenceIdeal.Read

variable (x0 x1 : (⟨S100000x32, .f32⟩ : BufTy).Contents (Elt Ideal)) (x2 : (⟨S3200000x1, .f32⟩ : BufTy).Contents (Elt Ideal))
  (x3 : (⟨S32x32, .f32⟩ : BufTy).Contents (Elt Ideal)) (x4 : (⟨S32, .f32⟩ : BufTy).Contents (Elt Ideal))
  (x5 : (⟨S64x32, .f32⟩ : BufTy).Contents (Elt Ideal)) (x6 : (⟨S32, .f32⟩ : BufTy).Contents (Elt Ideal))
  (x7 : (⟨S32x32, .f32⟩ : BufTy).Contents (Elt Ideal)) (x8 : (⟨S32, .f32⟩ : BufTy).Contents (Elt Ideal))
  (x9 x10 : (⟨S3200000, .i32⟩ : BufTy).Contents (Elt Ideal))

/-- The half-and-half mix the kernel forms is the reference's ½·Xv + ½·x0, entry by entry. -/
theorem mix_eq (v : Fin 100000) (k : Fin 32) :
    mixAt (affine x0 (upper x5) (biasRow x6))
        (nodeSums (product (edgeSums (affine x0 x3 (biasRow x4)) x2 x9 x10) (lower x5)) x9 x10) x1 v k
      = val_main_v42 (F := Ideal) x0 x1 x2 x3 x4 x5 x6 x9 x10 (ix2 v k) := by
  rw [val_main_v42_apply, val_main_v39_apply, val_main_v41_apply, val_main_v38_apply, val_main_v40_apply,
    val_main_cst_6_apply, val_main_cst_7_apply, ← Cert.NodeSums.regrouped x0 x2 x3 x4 x5 x6 x9 x10 v k]
  rfl

/-- THE TWO RESULTS ARE ONE FUNCTION of the arguments. -/
theorem same_result : kernelOut x0 x1 x2 x3 x4 x5 x6 x7 x8 x9 x10 = val_main_v46 (F := Ideal) x0 x1 x2 x3 x4 x5 x6 x7 x8 x9 x10 := by
  funext i
  obtain ⟨v, q, rfl⟩ : ∃ (v : Fin 100000) (q : Fin 32), i = ix2 v q := ⟨i 0, i 1, eq_ix2 i⟩
  rw [val_main_v46_apply, val_main_v43_apply, val_main_v45_apply, val_main_v44_apply]
  have el : ∀ k : Fin 32, lidx_main_v43 (ix2 v q) k = ix2 v k := fun k =>
    funext fun a => Fin.ext (by match a with | ⟨0, _⟩ => rfl | ⟨1, _⟩ => rfl)
  have er : ∀ k : Fin 32, ridx_main_v43 (ix2 v q) k = ix2 k q := fun k =>
    funext fun a => Fin.ext (by match a with | ⟨0, _⟩ => rfl | ⟨1, _⟩ => rfl)
  have eb : idx_main_v44 (idx_main_v45 (ix2 v q)) = ix1 q :=
    funext fun a => Fin.ext (by match a with | ⟨0, _⟩ => rfl)
  simp only [el, er, eb]
  show (∑ k : Fin 32, mixAt (affine x0 (upper x5) (biasRow x6))
        (nodeSums (product (edgeSums (affine x0 x3 (biasRow x4)) x2 x9 x10) (lower x5)) x9 x10) x1 v k * x7 (ix2 k q))
      + biasRow x8 (ix2 (0 : Fin 1) q)
    = (∑ k : Fin 32, val_main_v42 (F := Ideal) x0 x1 x2 x3 x4 x5 x6 x9 x10 (ix2 v k) * x7 (ix2 k q)) + x8 (ix1 q)
  rw [Cert.SharedEdgeSums.biasRow_at]
  refine congrArg (· + x8 (ix1 q)) (Finset.sum_congr rfl fun k _ => ?_)
  rw [mix_eq]

end Cert.SameResult

end
-- ==== Proof.lean ====
/-
  A hypergraph message-passing layer in three launches against its plain reference.

  The reference projects every node row (x·W1 + b1), gathers the projected rows by vertex, scales them by the
  incidence weights and sums them by edge (xe); then for every incidence it concatenates the node row and the edge row,
  sends the 64 entries through W2 with bias b2, sums the results by vertex (Xv), mixes ½·Xv + ½·x0 and sends the mix
  through W with bias b. The kernel takes W2 out of the sum over incidences: with x2 = x·W2[0:32] + b2 computed once
  per node and y = xe·W2[32:64] once per edge, it sums by vertex the rows y[edge] with a 1 appended, so that one
  scatter gives both the message Σ y[edge] and the count of incidences, and forms count · x2 + message in place of Xv.
  On the extended reals the two are equal for all arrays — only commutativity and associativity of + and the fact that
  a count (a sum of ones) distributes over + are used, so the precondition is never opened — and for all index words:
  an incidence contributes to node row v only when its vertex word IS v, where the wrap of negative words and the clamp
  of the gather do nothing, and the edge words go through the same wrap, clamp and drop in both programs.

  The three frames are the generated ones (the reference's from its generated run), `preserves` is `True` (the ideal
  pass rewrote nothing), and the value claim joins the kernel's run read boundary by boundary (KernelWhole) with the
  reference's generated run read entry by entry (SameResult).
-/
import proofs.«102758_j63153199120592_2_alg».proof.Defs
import proofs.«102758_j63153199120592_2_alg».proof.Proof.Gen.Kernel
import proofs.«102758_j63153199120592_2_alg».proof.Proof.Gen.Kernel.Skeleton
import proofs.«102758_j63153199120592_2_alg».proof.Proof.Gen.Kernel.Launch
import proofs.«102758_j63153199120592_2_alg».proof.Proof.Gen.Kernel.Points
import proofs.«102758_j63153199120592_2_alg».proof.Proof.Gen.Kernel.Frame
import proofs.«102758_j63153199120592_2_alg».proof.Proof.Gen.KernelIdeal
import proofs.«102758_j63153199120592_2_alg».proof.Proof.Gen.KernelIdeal.Skeleton
import proofs.«102758_j63153199120592_2_alg».proof.Proof.Gen.KernelIdeal.Launch
import proofs.«102758_j63153199120592_2_alg».proof.Proof.Gen.KernelIdeal.Points
import proofs.«102758_j63153199120592_2_alg».proof.Proof.Gen.KernelIdeal.Frame
import proofs.«102758_j63153199120592_2_alg».proof.Proof.Gen.ReferenceIdeal
import proofs.«102758_j63153199120592_2_alg».proof.Proof.Gen.ReferenceIdeal.Run
import proofs.«102758_j63153199120592_2_alg».proof.Proof.Gen.ReferenceIdeal.Read
import proofs.«102758_j63153199120592_2_alg».proof.Proof.Gen.Pre_finite_inputs
import proofs.«102758_j63153199120592_2_alg».proof.Proof.KernelWhole
import proofs.«102758_j63153199120592_2_alg».proof.Proof.SameResult
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both runs end with the result buffer at one function of the argument arrays. -/
theorem algebraic : Cert.algebraic_KernelIdeal_ReferenceIdeal := by
  intro m ρ m' ρ' _ hagree
  refine ⟨fun c => Cert.KernelIdeal.Whole.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v46_eq, a0, a1, a2, a3, a4, a5, a6, a7, a8, a9, a10]
  exact (Cert.SameResult.same_result _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
